-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x240x320 : Shape := ⟨4, ![4, 1, 240, 320]⟩
abbrev S4x256 : Shape := ⟨2, ![4, 256]⟩
abbrev S_ : Shape := ⟨0, ![]⟩
abbrev S4x1 : Shape := ⟨2, ![4, 1]⟩

class Facts : Prop where
  bcast_S_S4x1x240x320 : S_.BroadcastsInDim S4x1x240x320 (![] : Fin 0 → Fin S4x1x240x320.rank)
  reducesTo_S4x1x240x320_S_d0_1_2_3 : S4x1x240x320.ReducesTo [0, 1, 2, 3] S_
  h_S_ : 0 < S_.numel
  bcast_S_S4x256 : S_.BroadcastsInDim S4x256 (![] : Fin 0 → Fin S4x256.rank)
  reducesTo_S4x256_S_d0_1 : S4x256.ReducesTo [0, 1] S_
  reducesTo_S4x1x240x320_S4x1_d2_3 : S4x1x240x320.ReducesTo [2, 3] S4x1
  bcast_S_S4x1 : S_.BroadcastsInDim S4x1 (![] : Fin 0 → Fin S4x1.rank)
  reducesTo_S4x1_S_d0_1 : S4x1.ReducesTo [0, 1] S_

variable [Facts]

def fn {F : FTy → Type} [FloatOps F] (main_arg0 : FVec F S4x1x240x320 .f32) (main_arg1 : FVec F S4x256 .f32) : IVec S_ 1 :=
  let main_v0 : FVec F S4x1x240x320 .f32 := Host.absf main_arg0
  let main_cst : FVec F S_ .f32 := constant S_ .f32 0x7F800000#32
  let main_v1 : FVec F S4x1x240x320 .f32 := broadcastInDim S4x1x240x320 ![] bcast_S_S4x1x240x320 main_cst
  let main_v2 : IVec S4x1x240x320 1 := cmpf .olt main_v0 main_v1
  let main_c : IVec S_ 1 := constantI S_ 1 1#1
  let main_v3 : IVec S_ 1 := (fun x v => Host.reduce IntOp.andi x v reducesTo_S4x1x240x320_S_d0_1_2_3 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  let main_cst_2 : FVec F S_ .f32 := constant S_ .f32 0xFF800000#32
  let main_v9 : FVec F S4x1 .f32 := (fun x v => Host.reduce FloatOps.maximumf x v reducesTo_S4x1x240x320_S4x1_d2_3 h_S_) main_arg0 main_cst_2
  let main_cst_3 : FVec F S_ .f32 := constant S_ .f32 0x00000000#32
  let main_v10 : FVec F S4x1 .f32 := broadcastInDim S4x1 ![] bcast_S_S4x1 main_cst_3
  let main_v11 : IVec S4x1 1 := cmpf .une main_v9 main_v10
  let main_c_4 : IVec S_ 1 := constantI S_ 1 1#1
  let main_v12 : IVec S_ 1 := (fun x v => Host.reduce IntOp.andi x v reducesTo_S4x1_S_d0_1 h_S_) main_v11 main_c_4
  let main_v13 : IVec S_ 1 := andi main_v8 main_v12
  main_v13
-- ==== Kernel.lean ====
abbrev S4x1x240x320 : Shape := ⟨4, ![4, 1, 240, 320]⟩
abbrev S4x256 : Shape := ⟨2, ![4, 256]⟩
abbrev S4x76800 : Shape := ⟨2, ![4, 76800]⟩
abbrev S2x4x256 : Shape := ⟨3, ![2, 4, 256]⟩
abbrev S2x4x1 : Shape := ⟨3, ![2, 4, 1]⟩
abbrev S4x7680 : Shape := ⟨2, ![4, 7680]⟩
abbrev S1x4x256 : Shape := ⟨3, ![1, 4, 256]⟩
abbrev S1x4x1 : Shape := ⟨3, ![1, 4, 1]⟩
abbrev S4x1 : Shape := ⟨2, ![4, 1]⟩
abbrev S4x64 : Shape := ⟨2, ![4, 64]⟩
abbrev S4x64x1 : Shape := ⟨3, ![4, 64, 1]⟩
abbrev S4x1x7680 : Shape := ⟨3, ![4, 1, 7680]⟩
abbrev S4x64x7680 : Shape := ⟨3, ![4, 64, 7680]⟩
abbrev S4 : Shape := ⟨1, ![4]⟩
abbrev S_ : Shape := ⟨0, ![]⟩
abbrev S1 : Shape := ⟨1, ![1]⟩

abbrev nBuf : Space → Nat
  | .hbm => 30
  | .vmem => 9
  | .smem => 0
  | _ => 0

abbrev bufTy : (tb : Table) → Fin (tcTables nBuf tb) → BufTy
  | .hbm, ⟨0, _⟩ => ⟨S4x1x240x320, .f32⟩
  | .hbm, ⟨1, _⟩ => ⟨S4x256, .f32⟩
  | .hbm, ⟨2, _⟩ => ⟨S4x76800, .f32⟩
  | .hbm, ⟨3, _⟩ => ⟨S2x4x256, .f32⟩
  | .hbm, ⟨4, _⟩ => ⟨S2x4x1, .f32⟩
  | .hbm, ⟨5, _⟩ => ⟨S_, .f32⟩
  | .hbm, ⟨6, _⟩ => ⟨S4x256, .f32⟩
  | .hbm, ⟨7, _⟩ => ⟨S_, .f32⟩
  | .hbm, ⟨8, _⟩ => ⟨S4x1, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S4, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1, .f32⟩
  | .local _ .vmem, ⟨0, _⟩ => ⟨S4x7680, .f32⟩
  | .local _ .vmem, ⟨1, _⟩ => ⟨S4x7680, .f32⟩
  | .local _ .vmem, ⟨2, _⟩ => ⟨S4x256, .f32⟩
  | .local _ .vmem, ⟨3, _⟩ => ⟨S1x4x256, .f32⟩
  | .local _ .vmem, ⟨4, _⟩ => ⟨S1x4x256, .f32⟩
  | .local _ .vmem, ⟨5, _⟩ => ⟨S1x4x1, .f32⟩
  | .local _ .vmem, ⟨6, _⟩ => ⟨S1x4x1, .f32⟩
  | .local _ .vmem, ⟨7, _⟩ => ⟨S4x256, .f32⟩
  | .local _ .vmem, ⟨8, _⟩ => ⟨S4x1, .f32⟩
  | _, _ => ⟨S4x1x240x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_cst_6 : Ref sig .tc := ⟨.hbm, 25, rfl⟩
abbrev main_v15 : Ref sig .tc := ⟨.hbm, 26, rfl⟩
abbrev main_cst_7 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v60 : BitVec 1 := Scalar.cmpi .eq arg1 c4_i32
  let v61 : BitVec 32 := Scalar.extui v60
  let c0_i32_21 : BitVec 32 := 0#32
  let v62 : BitVec 1 := Scalar.cmpi .ne v61 c0_i32_21
  v62

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x7680 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4x1x240x320_S4x76800 : S4x1x240x320.ShapeCasts S4x76800
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S4x1_S4x1_0_0 : ∀ a, (![0, 0] : Fin 2 → Nat) a + S4x1.size a ≤ S4x1.size a
  h_S4x1 : 0 < S4x1.numel
  shapeCasts_S4x1_S4x1 : S4x1.ShapeCasts S4x1
  inb_S4x7680_S4x7680_0_0 : ∀ a, (![0, 0] : Fin 2 → Nat) a + S4x7680.size a ≤ S4x7680.size a
  h_S4x7680 : 0 < S4x7680.numel
  shapeCasts_S4x7680_S4x7680 : S4x7680.ShapeCasts S4x7680
  slices_S4x256_o0_0_S4x64 : S4x256.Slices ![0, 0] S4x64
  shapeCasts_S4x64_S4x64x1 : S4x64.ShapeCasts S4x64x1
  shapeCasts_S4x7680_S4x1x7680 : S4x7680.ShapeCasts S4x1x7680
  broadcasts_S4x64x1_S4x64x7680 : S4x64x1.Broadcasts S4x64x7680
  broadcasts_S4x1x7680_S4x64x7680 : S4x1x7680.Broadcasts S4x64x7680
  reduces_S4x64x7680_S4x64 : S4x64x7680.Reduces [2] S4x64
  reduces_S4x64x7680_S4x7680 : S4x64x7680.Reduces [1] S4x7680
  slices_S4x256_o0_64_S4x64 : S4x256.Slices ![0, 64] S4x64
  slices_S4x256_o0_128_S4x64 : S4x256.Slices ![0, 128] S4x64
  slices_S4x256_o0_192_S4x64 : S4x256.Slices ![0, 192] S4x64
  concatenates_S4x64_S4x64_S4x64_S4x64_S4x256_d1 : Shape.Concatenates [S4x64, S4x64, S4x64, S4x64] S4x256 1
  reduces_S4x7680_S4 : S4x7680.Reduces [1] S4
  shapeCasts_S4_S4x1 : S4.ShapeCasts S4x1
  shapeCasts_S4x256_S1x4x256 : S4x256.ShapeCasts S1x4x256
  inb_S1x4x256_S1x4x256_0_0_0 : ∀ a, (![0, 0, 0] : Fin 3 → Nat) a + S1x4x256.size a ≤ S1x4x256.size a
  h_S1x4x256 : 0 < S1x4x256.numel
  shapeCasts_S4x1_S1x4x1 : S4x1.ShapeCasts S1x4x1
  inb_S1x4x1_S1x4x1_0_0_0 : ∀ a, (![0, 0, 0] : Fin 3 → Nat) a + S1x4x1.size a ≤ S1x4x1.size a
  h_S1x4x1 : 0 < S1x4x1.numel
  reducesTo_S2x4x256_S4x256_d0 : S2x4x256.ReducesTo [0] S4x256
  h_S_ : 0 < S_.numel
  reducesTo_S2x4x1_S4x1_d0 : S2x4x1.ReducesTo [0] S4x1
  shapeCasts_S4x1_S4 : S4x1.ShapeCasts S4
  reducesTo_S4x256_S4_d1 : S4x256.ReducesTo [1] S4
  bcast_S_S4 : S_.BroadcastsInDim S4 (![] : Fin 0 → Fin S4.rank)
  reducesTo_S4x1x240x320_S4_d1_2_3 : S4x1x240x320.ReducesTo [1, 2, 3] S4
  reducesTo_S4_S_d0 : S4.ReducesTo [0] S_
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x7680.size a ≤ S4x76800.size a
  hwx0_0 : ∀ i : grid0.Coords, EltTy.bits .f32 = 32 ∨ (Rect.block (s := S4x76800) S4x7680.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256.size a ≤ S4x256.size a
  hwx0_1 : ∀ i : grid0.Coords, EltTy.bits .f32 = 32 ∨ (Rect.block (s := S4x256) S4x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x256.size a ≤ S2x4x256.size a
  hwx0_2 : ∀ i : grid0.Coords, EltTy.bits .f32 = 32 ∨ (Rect.block (s := S2x4x256) S1x4x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x1.size a ≤ S2x4x1.size a
  hwx0_3 : ∀ i : grid0.Coords, EltTy.bits .f32 = 32 ∨ (Rect.block (s := S2x4x1) S1x4x1.size (cc0_transform_3 i) (hinb0_3 i)).WholeWords (EltTy.packing .f32)

variable [Facts₀]

abbrev win0_0 : Pipeline.Window sig grid0 :=
  Pipeline.Window.ofSpec (Memref.whole main_v0) S4x7680.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x4x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x4x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x1x240x320 : Shape := ⟨4, ![4, 1, 240, 320]⟩
abbrev S4x256 : Shape := ⟨2, ![4, 256]⟩
abbrev S_ : Shape := ⟨0, ![]⟩
abbrev S4x1 : Shape := ⟨2, ![4, 1]⟩
abbrev S4x1x1x1 : Shape := ⟨4, ![4, 1, 1, 1]⟩
abbrev S4x76800 : Shape := ⟨2, ![4, 76800]⟩
abbrev S4x256x1 : Shape := ⟨3, ![4, 256, 1]⟩
abbrev S4x1x76800 : Shape := ⟨3, ![4, 1, 76800]⟩
abbrev S4x256x76800 : Shape := ⟨3, ![4, 256, 76800]⟩
abbrev S4 : Shape := ⟨1, ![4]⟩
abbrev S1 : Shape := ⟨1, ![1]⟩

abbrev nBuf : Space → Nat
  | .hbm => 39
  | .vmem => 0
  | .smem => 0
  | _ => 0

abbrev bufTy : (tb : Table) → Fin (tcTables nBuf tb) → BufTy
  | .hbm, ⟨0, _⟩ => ⟨S4x1x240x320, .f32⟩
  | .hbm, ⟨1, _⟩ => ⟨S4x256, .f32⟩
  | .hbm, ⟨2, _⟩ => ⟨S_, .f32⟩
  | .hbm, ⟨3, _⟩ => ⟨S4x1, .f32⟩
  | .hbm, ⟨4, _⟩ => ⟨S4x1x1x1, .f32⟩
  | .hbm, ⟨5, _⟩ => ⟨S4x1x240x320, .f32⟩
  | .hbm, ⟨6, _⟩ => ⟨S4x1x240x320, .f32⟩
  | .hbm, ⟨7, _⟩ => ⟨S4x1, .f32⟩
  | .hbm, ⟨8, _⟩ => ⟨S4x256, .f32⟩
  | .hbm, ⟨9, _⟩ => ⟨S4x256, .f32⟩
  | .hbm, ⟨10, _⟩ => ⟨S4x76800, .f32⟩
  | .hbm, ⟨11, _⟩ => ⟨S4x256x1, .f32⟩
  | .hbm, ⟨12, _⟩ => ⟨S4x1x76800, .f32⟩
  | .hbm, ⟨13, _⟩ => ⟨S4x256x76800, .f32⟩
  | .hbm, ⟨14, _⟩ => ⟨S4x256x76800, .f32⟩
  | .hbm, ⟨15, _⟩ => ⟨S4x256x76800, .f32⟩
  | .hbm, ⟨16, _⟩ => ⟨S4x256x76800, .f32⟩
  | .hbm, ⟨17, _⟩ => ⟨S_, .f32⟩
  | .hbm, ⟨18, _⟩ => ⟨S4x256, .f32⟩
  | .hbm, ⟨19, _⟩ => ⟨S_, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S_, .f32⟩
  | .hbm, ⟨25, _⟩ => ⟨S4x76800, .f32⟩
  | .hbm, ⟨26, _⟩ => ⟨S_, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1, .f32⟩
  | _, _ => ⟨S4x1x240x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  reducesTo_S4x1x240x320_S4x1_d2_3 : S4x1x240x320.ReducesTo [2, 3] S4x1
  h_S_ : 0 < S_.numel
  bcast_S4x1_S4x1x1x1_0_1 : S4x1.BroadcastsInDim S4x1x1x1 (![0, 1] : Fin 2 → Fin S4x1x1x1.rank)
  bcast_S4x1x1x1_S4x1x240x320_0_1_2_3 : S4x1x1x1.BroadcastsInDim S4x1x240x320 (![0, 1, 2, 3] : Fin 4 → Fin S4x1x240x320.rank)
  shapeCasts_S4x1x1x1_S4x1 : S4x1x1x1.ShapeCasts S4x1
  bcast_S4x1_S4x256_0_1 : S4x1.BroadcastsInDim S4x256 (![0, 1] : Fin 2 → Fin S4x256.rank)
  shapeCasts_S4x1x240x320_S4x76800 : S4x1x240x320.ShapeCasts S4x76800
  bcast_S4x256_S4x256x1_0_1 : S4x256.BroadcastsInDim S4x256x1 (![0, 1] : Fin 2 → Fin S4x256x1.rank)
  bcast_S4x76800_S4x1x76800_0_2 : S4x76800.BroadcastsInDim S4x1x76800 (![0, 2] : Fin 2 → Fin S4x1x76800.rank)
  bcast_S4x256x1_S4x256x76800_0_1_2 : S4x256x1.BroadcastsInDim S4x256x76800 (![0, 1, 2] : Fin 3 → Fin S4x256x76800.rank)
  bcast_S4x1x76800_S4x256x76800_0_1_2 : S4x1x76800.BroadcastsInDim S4x256x76800 (![0, 1, 2] : Fin 3 → Fin S4x256x76800.rank)
  reducesTo_S4x256x76800_S4x256_d2 : S4x256x76800.ReducesTo [2] S4x256
  reducesTo_S4x256_S4_d1 : S4x256.ReducesTo [1] S4
  bcast_S_S4 : S_.BroadcastsInDim S4 (![] : Fin 0 → Fin S4.rank)
  reducesTo_S4x256x76800_S4x76800_d1 : S4x256x76800.ReducesTo [1] S4x76800
  reducesTo_S4x76800_S4_d1 : S4x76800.ReducesTo [1] S4
  reducesTo_S4_S_d0 : S4.ReducesTo [0] S_
  shapeCasts_S_S1 : S_.ShapeCasts S1

variable [Facts₀]

class Facts : Prop extends Facts₀ where

variable [Facts]
-- ==== Proof.KernelPieces.lean ====
/-
  What one run of the kernel's body leaves in its two carried scratch buffers and, at the last tile of a half, in the two
  output blocks — each as ONE pure term of the tile of pixels `x0`, the bin centres `x1` and the scratch contents the
  body started from.

  The body keeps, in the first scratch, a running minimum per bin centre and, in the second, a running sum per image.
  At the first tile of a half it first resets them (to the splat of +∞ and the splat of 0) and reads the reset values
  back; at every tile it folds the tile in; at the last tile of a half it copies both to the output blocks.
-/
import proofs.«142597_j42812234006906_2_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a first tile of a half the running minimum is folded from the reset value. -/
theorem scratchMin_A (c : Dev nD) (i : grid0.Coords) (arg2 : Memref sig .tc .vmem S4x7680 .f32) (harg2 : arg2.IsWhole) (arg3 : Memref sig .tc .vmem S4x256 .f32) (harg3 : arg3.IsWhole) (arg4 : Memref sig .tc .vmem S1x4x256 .f32) (harg4 : arg4.IsWhole) (arg5 : Memref sig .tc .vmem S1x4x1 .f32) (harg5 : arg5.IsWhole) (arg6 : Memref sig .tc .vmem S4x256 .f32) (harg6 : arg6.IsWhole) (arg7 : Memref sig .tc .vmem S4x1 .f32) (harg7 : arg7.IsWhole) (hc0 : cond0_0 i) (hc1 : ¬cond0_1 i)
    (x0 : Vec F S4x7680 .f32) (x1 : Vec F S4x256 .f32) :
    sout0_A_0 c i arg2 harg2 arg3 harg3 arg4 harg4 arg5 harg5 arg6 harg6 arg7 harg7 hc0 hc1 x0 x1
      = k0_pay1 (k0_pay9 x0 x1) (k0_pay11 x0 x1) (k0_pay13 x0 x1) (k0_pay15 x0 x1) k0_pay5 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S4x256) hz2, View.readCov_unit_zero (S := S4x256) _ hz2]
  simp only [View.readAt_eq_ld, harg2.read_unread, harg3.read_unread, harg6.read_unread, harg7.read_unread, View.ld_unit_zero (S := S4x256) hz2, View.ld_unit_zero (S := S4x7680) hz2, View.ld_unit_zero (S := S4x1) hz2]

/-- At a first tile of a half the running sum is folded from the reset value. -/
theorem scratchSum_A (c : Dev nD) (i : grid0.Coords) (arg2 : Memref sig .tc .vmem S4x7680 .f32) (harg2 : arg2.IsWhole) (arg3 : Memref sig .tc .vmem S4x256 .f32) (harg3 : arg3.IsWhole) (arg4 : Memref sig .tc .vmem S1x4x256 .f32) (harg4 : arg4.IsWhole) (arg5 : Memref sig .tc .vmem S1x4x1 .f32) (harg5 : arg5.IsWhole) (arg6 : Memref sig .tc .vmem S4x256 .f32) (harg6 : arg6.IsWhole) (arg7 : Memref sig .tc .vmem S4x1 .f32) (harg7 : arg7.IsWhole) (hc0 : cond0_0 i) (hc1 : ¬cond0_1 i)
    (x0 : Vec F S4x7680 .f32) (x1 : Vec F S4x256 .f32) :
    sout0_A_1 c i arg2 harg2 arg3 harg3 arg4 harg4 arg5 harg5 arg6 harg6 arg7 harg7 hc0 hc1 x0 x1
      = k0_pay2 (k0_pay14 x0 x1) (k0_pay15 x0 x1) k0_pay6 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S4x1) hz2, View.readCov_unit_zero (S := S4x1) _ hz2]
  simp only [View.readAt_eq_ld, harg2.read_unread, harg3.read_unread, harg6.read_unread, harg7.read_unread, View.ld_unit_zero (S := S4x256) hz2, View.ld_unit_zero (S := S4x7680) hz2, View.ld_unit_zero (S := S4x1) hz2]

/-- At a middle tile the running minimum is folded from what the tile before left. -/
theorem scratchMin_B (c : Dev nD) (i : grid0.Coords) (arg2 : Memref sig .tc .vmem S4x7680 .f32) (harg2 : arg2.IsWhole) (arg3 : Memref sig .tc .vmem S4x256 .f32) (harg3 : arg3.IsWhole) (arg4 : Memref sig .tc .vmem S1x4x256 .f32) (harg4 : arg4.IsWhole) (arg5 : Memref sig .tc .vmem S1x4x1 .f32) (harg5 : arg5.IsWhole) (arg6 : Memref sig .tc .vmem S4x256 .f32) (harg6 : arg6.IsWhole) (arg7 : Memref sig .tc .vmem S4x1 .f32) (harg7 : arg7.IsWhole) (hc0 : ¬cond0_0 i) (hc1 : ¬cond0_1 i)
    (x0 : Vec F S4x7680 .f32) (x1 : Vec F S4x256 .f32) (xs0 : Vec F S4x256 .f32) (xs1 : Vec F S4x1 .f32) :
    sout0_B_0 c i arg2 harg2 arg3 harg3 arg4 harg4 arg5 harg5 arg6 harg6 arg7 harg7 hc0 hc1 x0 x1 xs0 xs1
      = k0_pay1 (k0_pay9 x0 x1) (k0_pay11 x0 x1) (k0_pay13 x0 x1) (k0_pay15 x0 x1) xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S4x256) hz2, View.ld_unit_zero (S := S4x7680) hz2, View.ld_unit_zero (S := S4x1) hz2]

/-- At a middle tile the running sum is folded from what the tile before left. -/
theorem scratchSum_B (c : Dev nD) (i : grid0.Coords) (arg2 : Memref sig .tc .vmem S4x7680 .f32) (harg2 : arg2.IsWhole) (arg3 : Memref sig .tc .vmem S4x256 .f32) (harg3 : arg3.IsWhole) (arg4 : Memref sig .tc .vmem S1x4x256 .f32) (harg4 : arg4.IsWhole) (arg5 : Memref sig .tc .vmem S1x4x1 .f32) (harg5 : arg5.IsWhole) (arg6 : Memref sig .tc .vmem S4x256 .f32) (harg6 : arg6.IsWhole) (arg7 : Memref sig .tc .vmem S4x1 .f32) (harg7 : arg7.IsWhole) (hc0 : ¬cond0_0 i) (hc1 : ¬cond0_1 i)
    (x0 : Vec F S4x7680 .f32) (x1 : Vec F S4x256 .f32) (xs0 : Vec F S4x256 .f32) (xs1 : Vec F S4x1 .f32) :
    sout0_B_1 c i arg2 harg2 arg3 harg3 arg4 harg4 arg5 harg5 arg6 harg6 arg7 harg7 hc0 hc1 x0 x1 xs0 xs1
      = k0_pay2 (k0_pay14 x0 x1) (k0_pay15 x0 x1) xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S4x256) hz2, View.ld_unit_zero (S := S4x7680) hz2, View.ld_unit_zero (S := S4x1) hz2]

/-- At the last tile of a half the scratch is folded as at a middle tile, -/
theorem scratchMin_C (c : Dev nD) (i : grid0.Coords) (arg2 : Memref sig .tc .vmem S4x7680 .f32) (harg2 : arg2.IsWhole) (arg3 : Memref sig .tc .vmem S4x256 .f32) (harg3 : arg3.IsWhole) (arg4 : Memref sig .tc .vmem S1x4x256 .f32) (harg4 : arg4.IsWhole) (arg5 : Memref sig .tc .vmem S1x4x1 .f32) (harg5 : arg5.IsWhole) (arg6 : Memref sig .tc .vmem S4x256 .f32) (harg6 : arg6.IsWhole) (arg7 : Memref sig .tc .vmem S4x1 .f32) (harg7 : arg7.IsWhole) (hc0 : ¬cond0_0 i) (hc1 : cond0_1 i)
    (x0 : Vec F S4x7680 .f32) (x1 : Vec F S4x256 .f32) (xs0 : Vec F S4x256 .f32) (xs1 : Vec F S4x1 .f32) :
    sout0_C_0 c i arg2 harg2 arg3 harg3 arg4 harg4 arg5 harg5 arg6 harg6 arg7 harg7 hc0 hc1 x0 x1 xs0 xs1
      = k0_pay1 (k0_pay9 x0 x1) (k0_pay11 x0 x1) (k0_pay13 x0 x1) (k0_pay15 x0 x1) xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S4x256) hz2, View.ld_unit_zero (S := S4x7680) hz2, View.ld_unit_zero (S := S4x1) hz2]

theorem scratchSum_C (c : Dev nD) (i : grid0.Coords) (arg2 : Memref sig .tc .vmem S4x7680 .f32) (harg2 : arg2.IsWhole) (arg3 : Memref sig .tc .vmem S4x256 .f32) (harg3 : arg3.IsWhole) (arg4 : Memref sig .tc .vmem S1x4x256 .f32) (harg4 : arg4.IsWhole) (arg5 : Memref sig .tc .vmem S1x4x1 .f32) (harg5 : arg5.IsWhole) (arg6 : Memref sig .tc .vmem S4x256 .f32) (harg6 : arg6.IsWhole) (arg7 : Memref sig .tc .vmem S4x1 .f32) (harg7 : arg7.IsWhole) (hc0 : ¬cond0_0 i) (hc1 : cond0_1 i)
    (x0 : Vec F S4x7680 .f32) (x1 : Vec F S4x256 .f32) (xs0 : Vec F S4x256 .f32) (xs1 : Vec F S4x1 .f32) :
    sout0_C_1 c i arg2 harg2 arg3 harg3 arg4 harg4 arg5 harg5 arg6 harg6 arg7 harg7 hc0 hc1 x0 x1 xs0 xs1
      = k0_pay2 (k0_pay14 x0 x1) (k0_pay15 x0 x1) xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S4x256) hz2, View.ld_unit_zero (S := S4x7680) hz2, View.ld_unit_zero (S := S4x1) hz2]

/-- and the output blocks receive the folded scratch, recast with a leading axis of one entry. -/
theorem outMin_C (c : Dev nD) (i : grid0.Coords) (arg2 : Memref sig .tc .vmem S4x7680 .f32) (harg2 : arg2.IsWhole) (arg3 : Memref sig .tc .vmem S4x256 .f32) (harg3 : arg3.IsWhole) (arg4 : Memref sig .tc .vmem S1x4x256 .f32) (harg4 : arg4.IsWhole) (arg5 : Memref sig .tc .vmem S1x4x1 .f32) (harg5 : arg5.IsWhole) (arg6 : Memref sig .tc .vmem S4x256 .f32) (harg6 : arg6.IsWhole) (arg7 : Memref sig .tc .vmem S4x1 .f32) (harg7 : arg7.IsWhole) (hc0 : ¬cond0_0 i) (hc1 : cond0_1 i)
    (x0 : Vec F S4x7680 .f32) (x1 : Vec F S4x256 .f32) (xs0 : Vec F S4x256 .f32) (xs1 : Vec F S4x1 .f32) :
    out0_C_2 c i arg2 harg2 arg3 harg3 arg4 harg4 arg5 harg5 arg6 harg6 arg7 harg7 hc0 hc1 x0 x1 xs0 xs1
      = k0_pay3 (k0_pay1 (k0_pay9 x0 x1) (k0_pay11 x0 x1) (k0_pay13 x0 x1) (k0_pay15 x0 x1) xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3, View.readCov_unit_zero (S := S4x256) _ hz2]
  simp only [View.readAt_eq_ld, harg2.read_unread, harg3.read_unread, harg6.read_unread, harg7.read_unread, View.ld_unit_zero (S := S4x256) hz2, View.ld_unit_zero (S := S4x7680) hz2, View.ld_unit_zero (S := S4x1) hz2]

theorem outSum_C (c : Dev nD) (i : grid0.Coords) (arg2 : Memref sig .tc .vmem S4x7680 .f32) (harg2 : arg2.IsWhole) (arg3 : Memref sig .tc .vmem S4x256 .f32) (harg3 : arg3.IsWhole) (arg4 : Memref sig .tc .vmem S1x4x256 .f32) (harg4 : arg4.IsWhole) (arg5 : Memref sig .tc .vmem S1x4x1 .f32) (harg5 : arg5.IsWhole) (arg6 : Memref sig .tc .vmem S4x256 .f32) (harg6 : arg6.IsWhole) (arg7 : Memref sig .tc .vmem S4x1 .f32) (harg7 : arg7.IsWhole) (hc0 : ¬cond0_0 i) (hc1 : cond0_1 i)
    (x0 : Vec F S4x7680 .f32) (x1 : Vec F S4x256 .f32) (xs0 : Vec F S4x256 .f32) (xs1 : Vec F S4x1 .f32) :
    out0_C_3 c i arg2 harg2 arg3 harg3 arg4 harg4 arg5 harg5 arg6 harg6 arg7 harg7 hc0 hc1 x0 x1 xs0 xs1
      = k0_pay4 (k0_pay2 (k0_pay14 x0 x1) (k0_pay15 x0 x1) xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3, View.readCov_unit_zero (S := S4x1) _ hz2]
  simp only [View.readAt_eq_ld, harg2.read_unread, harg3.read_unread, harg6.read_unread, harg7.read_unread, View.ld_unit_zero (S := S4x256) hz2, View.ld_unit_zero (S := S4x7680) hz2, View.ld_unit_zero (S := S4x1) hz2]

end Cert.KernelIdeal.Pieces
end
-- ==== Proof.KernelBlocks.lean ====
/-
  The blocks the kernel's body is handed. The bin centres come whole at every grid point; the pixels come as the
  tile of 7680 columns numbered by the grid point itself (half `t / 5`, tile `t % 5` of the half: column block
  `5 (t / 5) + t % 5 = t`) of the pixel array flattened to four rows of 76800.
-/
import proofs.«142597_j42812234006906_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The pixel window's block index at point `t` is `(0, t)`. -/
theorem tile_index : ∀ t : Fin grid0.N, win0_0.index t 0 = 0 ∧ win0_0.index t 1 = t.val := by decide +kernel
/-- The bin-centre window's block index is `(0, 0)` at every point. -/
theorem bins_index : ∀ t : Fin grid0.N, win0_1.index t 0 = 0 ∧ win0_1.index t 1 = 0 := by decide +kernel

/-- The bin centres' block at any point is the whole array. -/
theorem bins_block (c : Dev nD) (t : Fin cfg0.N) (b : Fin 4) (k : Fin 256) :
    (iblk m c 1 t : Vec F S4x256 .f32) (ix2 b k) = V m c main_arg1 (ix2 b k) := by
  unfold iblk
  rw [View.read_apply]
  show V m c main_arg1 _ = V m c main_arg1 _
  congr 1
  funext a
  apply Fin.ext
  match a with
  | ⟨0, _⟩ => show win0_1.index t 0 * 4 + 1 * b.val = b.val; rw [(bins_index t).1]; omega
  | ⟨1, _⟩ => show win0_1.index t 1 * 256 + 1 * k.val = k.val; rw [(bins_index t).2]; omega

/-- The pixels' block at point `t` is columns `7680 t … 7680 t + 7679` of the flattened pixel array. -/
theorem tile_block (c : Dev nD) (t : Fin cfg0.N) (b : Fin 4) (n : Fin 7680) :
    (iblk m c 0 t : Vec F S4x7680 .f32) (ix2 b n)
      = V m c main_v0 (ix2 b (⟨t.val * 7680 + n.val, by have := t.isLt; have hN : cfg0.N = 10 := N_0; have := n.isLt; omega⟩ : Fin 76800)) := by
  unfold iblk
  rw [View.read_apply]
  show V m c main_v0 _ = V m c main_v0 _
  congr 1
  funext a
  apply Fin.ext
  match a with
  | ⟨0, _⟩ => show win0_0.index t 0 * 4 + 1 * b.val = b.val; rw [(tile_index t).1]; omega
  | ⟨1, _⟩ => show win0_0.index t 1 * 7680 + 1 * n.val = t.val * 7680 + n.val; rw [(tile_index t).2]; omega

/-- The flattened pixel array the region finds is the reshape of the pixel argument. -/
theorem flat_array (c : Dev nD) :
    (V m c main_v0 : S4x76800.Idx → Elt F .f32)
      = shapeCast S4x76800 (m ((c : Thread nD τ).loc main_arg0)) shapeCasts_S4x1x240x320_S4x76800 := by
  show StableHlo.after hostOps0 (fun b => m (c, b)) (Proc.devRef .tc main_v0) = _
  after_results
  rfl

end Cert.KernelIdeal.Blocks

end
-- ==== Proof.Spec.lean ====
/-
  The chamfer loss between the pixels of four images and four rows of 256 bin centres, written two ways.

  For one image with pixels `t n` (76800 of them) and bin centres `β m` (256 of them) the squared distance of a bin
  centre to a pixel is `(β m - t n)²`. The loss adds, image by image, the mean over the bin centres of the distance to
  the nearest pixel and the mean over the pixels of the distance to the nearest bin centre, then averages the four images
  and scales by ten.

  `refLoss` first divides every pixel and every bin centre of an image by the image's scale `σ b` (its largest pixel) and
  takes all minima over whole rows. `kernelLoss` works on the raw values: the pixels come in ten tiles of 7680, five
  tiles to each of two halves; over the tiles of a half a running minimum per bin centre (`accMin`) and a running sum
  over the pixels of the distance to the nearest bin centre (`accSum`) are kept, the two halves are joined by a minimum
  and a sum, and the image's total is divided by `σ b * σ b` at the end.
-/
import Idealize.ShloMosaic.PureOps.Ideal

noncomputable section

namespace Cert.Chamfer

open Finset Idealize.ShloMosaic

/-- The squared difference of two extended reals. -/
def sq (x y : EReal) : EReal := (x - y) * (x - y)

/-- Within one tile of 7680 pixels `x b ·`: the squared distance from bin centre `m` of image `b` to its nearest pixel. -/
def tileMin (β : Fin 4 → Fin 256 → EReal) (x : Fin 4 → Fin 7680 → EReal) (b : Fin 4) (m : Fin 256) : EReal :=
  univ.fold min ⊤ fun n : Fin 7680 => sq (β b m) (x b n)

/-- Within one tile: the sum over its pixels of the squared distance to the nearest bin centre of image `b`. -/
def tileSum (β : Fin 4 → Fin 256 → EReal) (x : Fin 4 → Fin 7680 → EReal) (b : Fin 4) : EReal :=
  ∑ n : Fin 7680, univ.fold min ⊤ fun m : Fin 256 => sq (β b m) (x b n)

/-- The running minimum per bin centre after tile `t`: it restarts from `⊤` at the first tile of each half
    (`t % 5 = 0`) and otherwise continues from the tile before. -/
def accMin (β : Fin 4 → Fin 256 → EReal) (X : ℕ → Fin 4 → Fin 7680 → EReal) : ℕ → Fin 4 → Fin 256 → EReal
  | 0 => fun b m => min ⊤ (tileMin β (X 0) b m)
  | t + 1 => fun b m => min (if (t + 1) % 5 = 0 then ⊤ else accMin β X t b m) (tileMin β (X (t + 1)) b m)

/-- The running sum per image after tile `t`: it restarts from `0` at the first tile of each half and otherwise
    continues from the tile before. -/
def accSum (β : Fin 4 → Fin 256 → EReal) (X : ℕ → Fin 4 → Fin 7680 → EReal) : ℕ → Fin 4 → EReal
  | 0 => fun b => 0 + tileSum β (X 0) b
  | t + 1 => fun b => (if (t + 1) % 5 = 0 then 0 else accSum β X t b) + tileSum β (X (t + 1)) b

/-- The loss as the tiled computation forms it from the raw values: the halves `c = 0, 1` end at tiles `5 c + 4`. -/
def kernelLoss (β : Fin 4 → Fin 256 → EReal) (X : ℕ → Fin 4 → Fin 7680 → EReal) (σ : Fin 4 → EReal)
    (k256 k76800 k4 k10 : EReal) : EReal :=
  Ideal.div (∑ b : Fin 4,
      Ideal.div
        (Ideal.div (∑ m : Fin 256, univ.fold min ⊤ fun c : Fin 2 => accMin β X (5 * c.val + 4) b m) k256
          + Ideal.div (∑ c : Fin 2, accSum β X (5 * c.val + 4) b) k76800)
        (σ b * σ b)) k4 * k10

/-- The loss as the reference forms it: everything divided by the image's scale first, minima over whole rows. -/
def refLoss (β : Fin 4 → Fin 256 → EReal) (T : Fin 4 → Fin 76800 → EReal) (σ : Fin 4 → EReal)
    (k256 k76800 k4 k10 : EReal) : EReal :=
  Ideal.div (∑ b : Fin 4,
      (Ideal.div (∑ m : Fin 256, univ.fold min ⊤ fun n : Fin 76800 =>
            sq (Ideal.div (β b m) (σ b)) (Ideal.div (T b n) (σ b))) k256
        + Ideal.div (∑ n : Fin 76800, univ.fold min ⊤ fun m : Fin 256 =>
            sq (Ideal.div (β b m) (σ b)) (Ideal.div (T b n) (σ b))) k76800)) k4 * k10

end Cert.Chamfer

end
-- ==== Proof.LibMinFold.lean ====
/-
  Minima of finite families in a linear order, written as folds of `min` from a starting value `b`.

  Such a fold lies below `b` and below every member of the family, and is the greatest element that does. So two folds
  from one starting value agree as soon as every member of each family is a member of the other: the order in which
  members are met, how often one is met, and how the family is cut up do not matter (`min` commutes, associates and is
  idempotent). Two shapes of that fact are stated for use: a family listed as a table and folded row by row
  (`fold_rows`), and a family cut into four chunks whose minima are taken one after the other into a running minimum
  that itself starts from `b` (`fold_four_chunks`). Nothing is assumed of `b`: it need not be a top element.
-/
import Mathlib.Data.Finset.Fold
import Mathlib.Data.Fintype.Basic

namespace Cert.MinFold

variable {α : Type*} [LinearOrder α] {ι κ ρ : Type*} [Fintype ι] [Fintype κ] [Fintype ρ]

/-- A minimum taken from `b` is below `b`. -/
theorem fold_le_init (b : α) (f : ι → α) : Finset.univ.fold min b f ≤ b :=
  (Finset.fold_min_le _).2 (Or.inl le_rfl)

/-- A minimum is below each member. -/
theorem fold_le_apply (b : α) (f : ι → α) (i : ι) : Finset.univ.fold min b f ≤ f i :=
  (Finset.fold_min_le _).2 (Or.inr ⟨i, Finset.mem_univ i, le_rfl⟩)

/-- Whatever is below `b` and below each member is below the minimum. -/
theorem le_fold {b c : α} {f : ι → α} (hb : c ≤ b) (hf : ∀ i, c ≤ f i) : c ≤ Finset.univ.fold min b f :=
  (Finset.le_fold_min _).2 ⟨hb, fun i _ => hf i⟩

/-- Two families with the same members have the same minimum from `b`. -/
theorem fold_eq_of_members (b : α) (f : ι → α) (g : κ → α) (hfg : ∀ i, ∃ k, g k = f i) (hgf : ∀ k, ∃ i, f i = g k) :
    Finset.univ.fold min b f = Finset.univ.fold min b g := by
  apply le_antisymm
  · refine le_fold (fold_le_init b f) fun k => ?_
    obtain ⟨i, hi⟩ := hgf k
    exact hi ▸ fold_le_apply b f i
  · refine le_fold (fold_le_init b g) fun i => ?_
    obtain ⟨k, hk⟩ := hfg i
    exact hk ▸ fold_le_apply b g k

/-- ROWS FIRST. A table `g` whose entries are exactly the members of a family `f`: the minimum over the rows of each
    row's minimum, every fold started from `b`, is the minimum of `f`. -/
theorem fold_rows (b : α) (g : κ → ρ → α) (f : ι → α) (hfg : ∀ i, ∃ k r, g k r = f i) (hgf : ∀ k r, ∃ i, f i = g k r) :
    Finset.univ.fold min b (fun k => Finset.univ.fold min b (g k)) = Finset.univ.fold min b f := by
  apply le_antisymm
  · refine le_fold (fold_le_init b _) fun i => ?_
    obtain ⟨k, r, h⟩ := hfg i
    exact h ▸ (fold_le_apply b (fun k => Finset.univ.fold min b (g k)) k).trans (fold_le_apply b (g k) r)
  · refine le_fold (fold_le_init b f) fun k => le_fold (fold_le_init b f) fun r => ?_
    obtain ⟨i, h⟩ := hgf k r
    exact h ▸ fold_le_apply b f i

/-- A RUNNING MINIMUM OVER FOUR CHUNKS. A family `f` whose members are exactly those of four chunks `g0 … g3`: starting
    from `b` and taking in, one after the other, each chunk's own minimum from `b` gives the minimum of `f`. -/
theorem fold_four_chunks (b : α) (g0 g1 g2 g3 : ρ → α) (f : ι → α)
    (hfg : ∀ i, (∃ r, g0 r = f i) ∨ (∃ r, g1 r = f i) ∨ (∃ r, g2 r = f i) ∨ (∃ r, g3 r = f i))
    (h0 : ∀ r, ∃ i, f i = g0 r) (h1 : ∀ r, ∃ i, f i = g1 r) (h2 : ∀ r, ∃ i, f i = g2 r) (h3 : ∀ r, ∃ i, f i = g3 r) :
    min (min (min (min b (Finset.univ.fold min b g0)) (Finset.univ.fold min b g1)) (Finset.univ.fold min b g2))
        (Finset.univ.fold min b g3)
      = Finset.univ.fold min b f := by
  have below : ∀ (g : ρ → α), (∀ r, ∃ i, f i = g r) → Finset.univ.fold min b f ≤ Finset.univ.fold min b g :=
    fun g hg => le_fold (fold_le_init b f) fun r => by
      obtain ⟨i, h⟩ := hg r
      exact h ▸ fold_le_apply b f i
  apply le_antisymm
  · refine le_fold ?_ fun i => ?_
    · exact (min_le_left _ _).trans ((min_le_left _ _).trans ((min_le_left _ _).trans (min_le_left _ _)))
    · rcases hfg i with ⟨r, h⟩ | ⟨r, h⟩ | ⟨r, h⟩ | ⟨r, h⟩
      · exact h ▸ (min_le_left _ _).trans ((min_le_left _ _).trans ((min_le_left _ _).trans
          ((min_le_right _ _).trans (fold_le_apply b g0 r))))
      · exact h ▸ (min_le_left _ _).trans ((min_le_left _ _).trans ((min_le_right _ _).trans (fold_le_apply b g1 r)))
      · exact h ▸ (min_le_left _ _).trans ((min_le_right _ _).trans (fold_le_apply b g2 r))
      · exact h ▸ (min_le_right _ _).trans (fold_le_apply b g3 r)
  · exact le_min (le_min (le_min (le_min (fold_le_init b f) (below g0 h0)) (below g1 h1)) (below g2 h2)) (below g3 h3)

end Cert.MinFold
-- ==== Proof.LibMinReduce.lean ====
/-
  A minimum along ONE axis, read at the ideal values as the fold of `min` over that axis's coordinates.

  At the extended reals a float `vector.multi_reduction <minimumf>` over one axis is, at each kept index `j`, the fold of `min`
  from the accumulator's value over the reduced axis's coordinates `k`, reading the source at `j` with `k` inserted
  (`Shape.Reduces.lift`); the host's one-operand `stablehlo.reduce` with a `minimum` body over one axis is the same fold from
  its initial value's element. (The order of a reduction does not matter for `min`, which commutes and associates.) These are
  the `minimumf` counterparts of the library's `Ideal.multiReduction_maximumf_single`.
-/
import Idealize.ShloMosaic.PureOps.Reduce
import Idealize.ShloMosaic.PureOps.Ideal.Laws

namespace Cert.MinReduce

open Idealize.ShloMosaic

variable {s t : Shape} {φ : FTy} {a : Fin s.rank}

/-- A float `vector.multi_reduction <minimumf>` over one axis, at the ideal values. -/
theorem multiReduction_minimumf_single (src : FVec Ideal s φ) (acc : BitVec φ.bits) (h : s.Reduces [a] t)
    (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single _ _ src j

/-- The host's `stablehlo.reduce` with a `minimum` body over one axis, at the ideal values (`h'` is the shape fact the
    operation carries, `h` the same fact in the form that names the inserted index). -/
theorem hostReduce_minimumf_single {u : Shape} (x : FVec Ideal s φ) (init : u.Idx → Ideal φ) (h' : s.ReducesTo [a] t)
    (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single FloatOps.minimumf x init h' h hu j

end Cert.MinReduce
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payloads.lean ====
/-
  The kernel body's arithmetic read at an index, at the ideal values (every float an extended real, every operation exact).

  One tile of 7680 pixels of four images is held as `x0 (b, n)`, the four rows of 256 bin centres as `x1 (b, m)`. The body
  forms, for each of the four chunks of 64 bin centres, the array of squared differences `(x1 (b, 64 c + q) - x0 (b, n))²` at
  `(b, q, n)`; it takes each chunk's minimum over the pixels (laid side by side these are the tile's minimum per bin
  centre) and, running over the chunks, the minimum over the bin centres (per pixel), which it then adds up over the
  pixels. Read at an index, the first updates a running minimum by `tileMin`, the second a running sum by `tileSum`.
-/
import proofs.«142597_j42812234006906_2_alg».proof.Proof.Gen.KernelIdeal.Skeleton
import proofs.«142597_j42812234006906_2_alg».proof.Proof.Spec
import proofs.«142597_j42812234006906_2_alg».proof.Proof.LibMinFold
import proofs.«142597_j42812234006906_2_alg».proof.Proof.LibMinReduce
import proofs.«142597_j42812234006906_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.Chamfer Finset

/-! ## The two constant words -/

/-- The word `0x7F800000` is the extended real `⊤`. -/
theorem ofBits_inf_f32 : Ideal.ofBits .f32 0x7F800000#32 = ⊤ := by simp [Ideal.ofBits, Ideal.ieee]

/-! ## Layout readings by coordinates -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

/-! ## The initial values and the two stores of the results -/

theorem init_min (b : Fin 4) (m : Fin 256) : k0_pay5 (F := Ideal) (ix2 b m) = ⊤ := by
  unfold k0_pay5
  rw [shapeCast_self]
  exact ofBits_inf_f32

theorem init_sum (b : Fin 4) : k0_pay6 (F := Ideal) (ix2 b 0) = 0 := by
  unfold k0_pay6
  rw [shapeCast_self]
  exact Ideal.ofBits_zero_f32

theorem out_min (v : Vec Ideal S4x256 .f32) (b : Fin 4) (m : Fin 256) : k0_pay3 (F := Ideal) v (ix3 0 b m) = v (ix2 b m) :=
  shapeCast_ab_1ab_apply v shapeCasts_S4x256_S1x4x256 0 b m

theorem out_sum (v : Vec Ideal S4x1 .f32) (b : Fin 4) : k0_pay4 (F := Ideal) v (ix3 0 b 0) = v (ix2 b 0) :=
  shapeCast_ab_1ab_apply v shapeCasts_S4x1_S1x4x1 0 b 0

/-! ## One chunk's squared differences -/

/-- The differences `x1 (b, o + q) - x0 (b, n)` at `(b, q, n)` for the chunk of 64 bin centres that starts at column `o`, as the
    body forms them: the chunk cut out of `x1` and repeated along the pixels, the tile repeated along the chunk's rows. -/
def chunkDiff (o : ℕ) (hs : S4x256.Slices ![0, o] S4x64) (x0 : Vec Ideal S4x7680 .f32) (x1 : Vec Ideal S4x256 .f32) :
    FVec Ideal S4x64x7680 .f32 :=
  subf
    (broadcastTo S4x64x7680 (shapeCast S4x64x1 (extractStridedSlice S4x64 ![0, o] x1 hs) shapeCasts_S4x64_S4x64x1)
      broadcasts_S4x64x1_S4x64x7680)
    (broadcastTo S4x64x7680 (shapeCast S4x1x7680 (k0_pay7 (F := Ideal) x0) shapeCasts_S4x7680_S4x1x7680)
      broadcasts_S4x1x7680_S4x64x7680)

/-- The chunk's squared differences. -/
def chunkSq (o : ℕ) (hs : S4x256.Slices ![0, o] S4x64) (x0 : Vec Ideal S4x7680 .f32) (x1 : Vec Ideal S4x256 .f32) :
    FVec Ideal S4x64x7680 .f32 :=
  mulf (chunkDiff o hs x0 x1) (chunkDiff o hs x0 x1)

theorem pay8_eq (x0 : Vec Ideal S4x7680 .f32) (x1 : Vec Ideal S4x256 .f32) :
    k0_pay8 (F := Ideal) x0 x1 = chunkSq 0 slices_S4x256_o0_0_S4x64 x0 x1 := rfl
theorem pay10_eq (x0 : Vec Ideal S4x7680 .f32) (x1 : Vec Ideal S4x256 .f32) :
    k0_pay10 (F := Ideal) x0 x1 = chunkSq 64 slices_S4x256_o0_64_S4x64 x0 x1 := rfl
theorem pay12_eq (x0 : Vec Ideal S4x7680 .f32) (x1 : Vec Ideal S4x256 .f32) :
    k0_pay12 (F := Ideal) x0 x1 = chunkSq 128 slices_S4x256_o0_128_S4x64 x0 x1 := rfl
theorem pay15_eq (x0 : Vec Ideal S4x7680 .f32) (x1 : Vec Ideal S4x256 .f32) :
    k0_pay15 (F := Ideal) x0 x1 = chunkSq 192 slices_S4x256_o0_192_S4x64 x0 x1 := rfl

/-- A chunk's entry `(b, q, n)` is the squared difference of bin centre `m = o + q` and pixel `n` of image `b`. -/
theorem chunkSq_apply (o : ℕ) (hs : S4x256.Slices ![0, o] S4x64) (x0 : Vec Ideal S4x7680 .f32) (x1 : Vec Ideal S4x256 .f32)
    (b : Fin 4) (q : Fin 64) (n : Fin 7680) (m : Fin 256) (hm : m.val = o + q.val) :
    chunkSq o hs x0 x1 (ix3 b q n) = sq (x1 (ix2 b m)) (x0 (ix2 b n)) := by
  have e : chunkDiff o hs x0 x1 (ix3 b q n) = x1 (ix2 b m) - x0 (ix2 b n) := by
    unfold chunkDiff
    rw [subf_apply]
    congr 1
    · refine (broadcastTo_ab1_abc_apply _ _ b q n).trans ?_
      refine (shapeCast_ab_ab1_apply _ _ b q 0).trans ?_
      exact slice2_axis1_apply o x1 hs b q m hm
    · refine (broadcastTo_a1c_abc_apply _ _ b q n).trans ?_
      refine (shapeCast_ac_a1c_apply _ _ b 0 n).trans ?_
      unfold k0_pay7
      rw [shapeCast_self]
  unfold chunkSq
  rw [mulf_apply, e]
  rfl

/-! ## The reductions read by coordinates -/

/-- Over the pixel axis, the index above `(b, q)` with pixel `n` inserted is `(b, q, n)`. -/
theorem lift_pixels (b : Fin 4) (q : Fin 64) (n : Fin 7680) :
    reduces_S4x64x7680_S4x64.lift (ix2 b q) n = ix3 b q n := by
  funext c
  match c with
  | ⟨0, _⟩ => exact Fin.ext rfl
  | ⟨1, _⟩ => exact Fin.ext rfl
  | ⟨2, _⟩ => exact Fin.ext rfl

/-- Over the axis of a chunk's rows, the index above `(b, n)` with row `q` inserted is `(b, q, n)`. -/
theorem lift_rows (b : Fin 4) (n : Fin 7680) (q : Fin 64) :
    reduces_S4x64x7680_S4x7680.lift (ix2 b n) q = ix3 b q n := by
  funext c
  match c with
  | ⟨0, _⟩ => exact Fin.ext rfl
  | ⟨1, _⟩ => exact Fin.ext rfl
  | ⟨2, _⟩ => exact Fin.ext rfl

/-- Over the pixel axis of a `[4, 7680]` array, the index above `b` with pixel `n` inserted is `(b, n)`. -/
theorem lift_sum (b : Fin 4) (n : Fin 7680) : reduces_S4x7680_S4.lift (ix1 b) n = ix2 b n := by
  funext c
  match c with
  | ⟨0, _⟩ => exact Fin.ext rfl
  | ⟨1, _⟩ => exact Fin.ext rfl

/-- The minimum over the pixels, from `⊤`, at `(b, q)`. -/
theorem min_pixels_apply (src : FVec Ideal S4x64x7680 .f32) (b : Fin 4) (q : Fin 64) :
    multiReduction (F := Ideal) .minimumf [2] S4x64 src 0x7F800000#32 reduces_S4x64x7680_S4x64 (.inl rfl) rfl (ix2 b q)
      = univ.fold min ⊤ fun n : Fin 7680 => src (ix3 b q n) := by
  refine (Cert.MinReduce.multiReduction_minimumf_single src 0x7F800000#32 reduces_S4x64x7680_S4x64 (.inl rfl) rfl
    (ix2 b q)).trans ?_
  rw [ofBits_inf_f32]
  exact congrArg (univ.fold min ⊤) (funext fun n => congrArg src (lift_pixels b q n))

/-- The minimum over a chunk's rows, from `⊤`, at `(b, n)`. -/
theorem min_rows_apply (src : FVec Ideal S4x64x7680 .f32) (b : Fin 4) (n : Fin 7680) :
    multiReduction (F := Ideal) .minimumf [1] S4x7680 src 0x7F800000#32 reduces_S4x64x7680_S4x7680 (.inl rfl) rfl (ix2 b n)
      = univ.fold min ⊤ fun q : Fin 64 => src (ix3 b q n) := by
  refine (Cert.MinReduce.multiReduction_minimumf_single src 0x7F800000#32 reduces_S4x64x7680_S4x7680 (.inl rfl) rfl
    (ix2 b n)).trans ?_
  rw [ofBits_inf_f32]
  exact congrArg (univ.fold min ⊤) (funext fun q => congrArg src (lift_rows b n q))

/-- The sum over the pixels at `b`. -/
theorem sum_pixels_apply (src : FVec Ideal S4x7680 .f32) (b : Fin 4) :
    multiReduction (F := Ideal) .add [1] S4 src 0x00000000#32 reduces_S4x7680_S4 (.inl rfl) rfl (ix1 b)
      = ∑ n : Fin 7680, src (ix2 b n) := by
  refine (Ideal.multiReduction_add_single src 0x00000000#32 reduces_S4x7680_S4 (.inl rfl) rfl (ix1 b)).trans ?_
  exact Finset.sum_congr rfl fun n _ => congrArg src (lift_sum b n)

/-! ## One tile's update of the running minimum -/

/-- A chunk's minimum over the pixels at `(b, q)` is the tile's minimum for bin centre `m = o + q`. -/
theorem chunk_tileMin (o : ℕ) (hs : S4x256.Slices ![0, o] S4x64) (x0 : Vec Ideal S4x7680 .f32) (x1 : Vec Ideal S4x256 .f32)
    (b : Fin 4) (q : Fin 64) (m : Fin 256) (hm : m.val = o + q.val) :
    multiReduction (F := Ideal) .minimumf [2] S4x64 (chunkSq o hs x0 x1) 0x7F800000#32 reduces_S4x64x7680_S4x64 (.inl rfl) rfl
        (ix2 b q)
      = tileMin (fun b m => x1 (ix2 b m)) (fun b n => x0 (ix2 b n)) b m := by
  rw [min_pixels_apply]
  unfold tileMin
  exact congrArg (univ.fold min ⊤) (funext fun n => chunkSq_apply o hs x0 x1 b q n m hm)

/-- Four `[4, 64]` arrays laid side by side read, at `(b, m)` with `m = 64 k + q`, piece `k` at `(b, q)`. -/
theorem concat4_apply {α : Type} (v0 v1 v2 v3 : S4x64.Idx → α) (b : Fin 4) (m : Fin 256) (k : ℕ) (hk : k < 4) (q : Fin 64)
    (hm : m.val = 64 * k + q.val) (vk : S4x64.Idx → α)
    (hvk : ([⟨S4x64, v0⟩, ⟨S4x64, v1⟩, ⟨S4x64, v2⟩, ⟨S4x64, v3⟩] : List ((s : Shape) × (s.Idx → α)))[k] = ⟨S4x64, vk⟩) :
    concatenate S4x256 1 [⟨S4x64, v0⟩, ⟨S4x64, v1⟩, ⟨S4x64, v2⟩, ⟨S4x64, v3⟩]
        concatenates_S4x64_S4x64_S4x64_S4x64_S4x256_d1 (ix2 b m) = vk (ix2 b q) := by
  refine concatenate_apply_piece (t := S4x256) 1 [⟨S4x64, v0⟩, ⟨S4x64, v1⟩, ⟨S4x64, v2⟩, ⟨S4x64, v3⟩]
    concatenates_S4x64_S4x64_S4x64_S4x64_S4x256_d1 (ix2 b m) k hk S4x64 vk hvk rfl (64 * k) ?_ (ix2 b q) ?_ ?_
  · interval_cases k <;> rfl
  · intro c hc
    match c with
    | ⟨0, _⟩ => rfl
    | ⟨1, _⟩ => exact absurd (Fin.ext rfl) hc
  · show 64 * k + q.val = m.val
    omega

theorem minbin_step (x0 : Vec Ideal S4x7680 .f32) (x1 : Vec Ideal S4x256 .f32) (xs0 : Vec Ideal S4x256 .f32) (b : Fin 4) (m : Fin 256) :
    k0_pay1 (F := Ideal) (k0_pay9 x0 x1) (k0_pay11 x0 x1) (k0_pay13 x0 x1) (k0_pay15 x0 x1) xs0 (ix2 b m)
      = min (xs0 (ix2 b m)) (tileMin (fun b m => x1 (ix2 b m)) (fun b n => x0 (ix2 b n)) b m) := by
  unfold k0_pay1
  rw [shapeCast_self, minimumf_apply]
  congr 1
  have hm := m.isLt
  rcases (by omega : m.val < 64 ∨ (64 ≤ m.val ∧ m.val < 128) ∨ (128 ≤ m.val ∧ m.val < 192) ∨ 192 ≤ m.val) with h | h | h | h
  · refine (concat4_apply _ _ _ _ b m 0 (by omega) ⟨m.val, h⟩ (by simp) _ rfl).trans ?_
    unfold k0_pay9
    rw [pay8_eq]
    exact chunk_tileMin 0 _ x0 x1 b _ m (by simp)
  · refine (concat4_apply _ _ _ _ b m 1 (by omega) ⟨m.val - 64, by omega⟩ (by simp; omega) _ rfl).trans ?_
    unfold k0_pay11
    rw [pay10_eq]
    exact chunk_tileMin 64 _ x0 x1 b _ m (by simp; omega)
  · refine (concat4_apply _ _ _ _ b m 2 (by omega) ⟨m.val - 128, by omega⟩ (by simp; omega) _ rfl).trans ?_
    unfold k0_pay13
    rw [pay12_eq]
    exact chunk_tileMin 128 _ x0 x1 b _ m (by simp; omega)
  · refine (concat4_apply _ _ _ _ b m 3 (by omega) ⟨m.val - 192, by omega⟩ (by simp; omega) _ rfl).trans ?_
    rw [pay15_eq]
    exact chunk_tileMin 192 _ x0 x1 b _ m (by simp; omega)

/-! ## One tile's update of the running sum -/

/-- The running minimum over the four chunks at `(b, n)`, each chunk's minimum over its rows taken into a minimum that
    starts from `⊤`, is the minimum over all 256 bin centres of the squared difference to pixel `n`. -/
theorem nearest_bin (x0 : Vec Ideal S4x7680 .f32) (x1 : Vec Ideal S4x256 .f32) (b : Fin 4) (n : Fin 7680) :
    min (k0_pay14 (F := Ideal) x0 x1 (ix2 b n))
        (multiReduction (F := Ideal) .minimumf [1] S4x7680 (k0_pay15 (F := Ideal) x0 x1) 0x7F800000#32
          reduces_S4x64x7680_S4x7680 (.inl rfl) rfl (ix2 b n))
      = univ.fold min ⊤ fun m : Fin 256 => sq (x1 (ix2 b m)) (x0 (ix2 b n)) := by
  have e : min (k0_pay14 (F := Ideal) x0 x1 (ix2 b n))
        (multiReduction (F := Ideal) .minimumf [1] S4x7680 (k0_pay15 (F := Ideal) x0 x1) 0x7F800000#32
          reduces_S4x64x7680_S4x7680 (.inl rfl) rfl (ix2 b n))
      = min (min (min (min ⊤
            (univ.fold min ⊤ fun q : Fin 64 => chunkSq 0 slices_S4x256_o0_0_S4x64 x0 x1 (ix3 b q n)))
            (univ.fold min ⊤ fun q : Fin 64 => chunkSq 64 slices_S4x256_o0_64_S4x64 x0 x1 (ix3 b q n)))
            (univ.fold min ⊤ fun q : Fin 64 => chunkSq 128 slices_S4x256_o0_128_S4x64 x0 x1 (ix3 b q n)))
            (univ.fold min ⊤ fun q : Fin 64 => chunkSq 192 slices_S4x256_o0_192_S4x64 x0 x1 (ix3 b q n)) := by
    unfold k0_pay14
    rw [pay8_eq, pay10_eq, pay12_eq, pay15_eq, minimumf_apply, minimumf_apply, minimumf_apply, min_rows_apply,
      min_rows_apply, min_rows_apply, min_rows_apply, broadcast_apply]
    exact congrArg (fun t => min (min (min (min t _) _) _) _) ofBits_inf_f32
  rw [e]
  refine Cert.MinFold.fold_four_chunks ⊤ _ _ _ _ (fun m : Fin 256 => sq (x1 (ix2 b m)) (x0 (ix2 b n))) ?_ ?_ ?_ ?_ ?_
  · intro m
    have hm := m.isLt
    rcases (by omega : m.val < 64 ∨ (64 ≤ m.val ∧ m.val < 128) ∨ (128 ≤ m.val ∧ m.val < 192) ∨ 192 ≤ m.val) with h | h | h | h
    · exact .inl ⟨⟨m.val, h⟩, chunkSq_apply 0 _ x0 x1 b _ n m (by simp)⟩
    · exact .inr (.inl ⟨⟨m.val - 64, by omega⟩, chunkSq_apply 64 _ x0 x1 b _ n m (by simp; omega)⟩)
    · exact .inr (.inr (.inl ⟨⟨m.val - 128, by omega⟩, chunkSq_apply 128 _ x0 x1 b _ n m (by simp; omega)⟩))
    · exact .inr (.inr (.inr ⟨⟨m.val - 192, by omega⟩, chunkSq_apply 192 _ x0 x1 b _ n m (by simp; omega)⟩))
  · exact fun q => ⟨⟨0 + q.val, by omega⟩, (chunkSq_apply 0 _ x0 x1 b q n _ rfl).symm⟩
  · exact fun q => ⟨⟨64 + q.val, by omega⟩, (chunkSq_apply 64 _ x0 x1 b q n _ rfl).symm⟩
  · exact fun q => ⟨⟨128 + q.val, by omega⟩, (chunkSq_apply 128 _ x0 x1 b q n _ rfl).symm⟩
  · exact fun q => ⟨⟨192 + q.val, by omega⟩, (chunkSq_apply 192 _ x0 x1 b q n _ rfl).symm⟩

theorem sum_step (x0 : Vec Ideal S4x7680 .f32) (x1 : Vec Ideal S4x256 .f32) (xs1 : Vec Ideal S4x1 .f32) (b : Fin 4) :
    k0_pay2 (F := Ideal) (k0_pay14 x0 x1) (k0_pay15 x0 x1) xs1 (ix2 b 0)
      = xs1 (ix2 b 0) + tileSum (fun b m => x1 (ix2 b m)) (fun b n => x0 (ix2 b n)) b := by
  unfold k0_pay2
  rw [shapeCast_self, addf_apply]
  congr 1
  refine (Cert.Keepdims.shapeCast_a_a1_apply _ shapeCasts_S4_S4x1 b 0).trans ?_
  rw [sum_pixels_apply]
  unfold tileSum
  refine Finset.sum_congr rfl fun n _ => ?_
  rw [minimumf_apply]
  exact nearest_bin x0 x1 b n

end Cert.KernelIdeal.Pay

end
-- ==== Proof.KernelAcc.lean ====
/-
  What the two carried scratch buffers hold after each grid point, and what the output blocks receive at the last tile
  of a half: the running minimum per bin centre (`accMin`) and the running sum per image (`accSum`) of the tiled
  chamfer computation, over the bin centres `β` and the tiles `X t` as the region finds them. By induction on the
  grid point: the first tile of a half folds from the reset values, every other tile from what the tile before left.
-/
import proofs.«142597_j42812234006906_2_alg».proof.Proof.KernelPieces
import proofs.«142597_j42812234006906_2_alg».proof.Proof.KernelBlocks
import proofs.«142597_j42812234006906_2_alg».proof.Proof.Payloads
import proofs.«142597_j42812234006906_2_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Chamfer

variable (m : (ℓ : Loc nD τ sig) → Buf (Elt Ideal) ℓ)

/-- The bin centres as the region finds them. -/
def β (c : Dev nD) : Fin 4 → Fin 256 → EReal := fun b k => V m c main_arg1 (ix2 b k)

/-- Tile `t` of the pixels as the region finds them (`0` past the grid's ten points). -/
def X (c : Dev nD) (t : ℕ) : Fin 4 → Fin 7680 → EReal := fun b n =>
  if h : t < cfg0.N then (iblk m c 0 ⟨t, h⟩ : Vec Ideal S4x7680 .f32) (ix2 b n) else 0

theorem tiles_eq (c : Dev nD) (t : Fin cfg0.N) :
    (fun (b : Fin 4) (n : Fin 7680) => (iblk m c 0 t : Vec Ideal S4x7680 .f32) (ix2 b n)) = X m c t.val := by
  funext b n
  unfold X
  rw [dif_pos t.isLt]

theorem bins_eq (c : Dev nD) (t : Fin cfg0.N) :
    (fun (b : Fin 4) (k : Fin 256) => (iblk m c 1 t : Vec Ideal S4x256 .f32) (ix2 b k)) = β m c := by
  funext b k
  exact Blocks.bins_block m c t b k

/-- THE RUNNING VALUES: after point `n` the first scratch holds `accMin … n` and the second `accSum … n`. -/
theorem scratch_inv (c : Dev nD) : ∀ (n : ℕ) (h : n < cfg0.N),
    (∀ (b : Fin 4) (k : Fin 256), (outsAt0 m c n h).2.2.1 (ix2 b k) = accMin (β m c) (X m c) n b k)
      ∧ (∀ b : Fin 4, (outsAt0 m c n h).2.2.2 (ix2 b 0) = accSum (β m c) (X m c) n b)
  | 0, h => by
    have hA := outsAt0_A m c ⟨0, h⟩ rfl (by show ¬ 0 % 5 = 4; omega)
    constructor
    · intro b k
      rw [hA]; dsimp only
      rw [Pieces.scratchMin_A, Pay.minbin_step, Pay.init_min, bins_eq m c ⟨0, h⟩, tiles_eq m c ⟨0, h⟩]
      rfl
    · intro b
      rw [hA]; dsimp only
      rw [Pieces.scratchSum_A, Pay.sum_step, Pay.init_sum, bins_eq m c ⟨0, h⟩, tiles_eq m c ⟨0, h⟩]
      rfl
  | n + 1, h => by
    have hN : cfg0.N = 10 := N_0
    obtain ⟨ihMin, ihSum⟩ := scratch_inv c n (Nat.lt_of_succ_lt h)
    by_cases h0 : (n + 1) % 5 = 0
    · have h1 : ¬ (n + 1) % 5 = 4 := by omega
      have hA := outsAt0_A m c ⟨n + 1, h⟩ h0 h1
      constructor
      · intro b k
        rw [hA]; dsimp only
        rw [Pieces.scratchMin_A, Pay.minbin_step, Pay.init_min, bins_eq m c ⟨n + 1, h⟩, tiles_eq m c ⟨n + 1, h⟩]
        show _ = min (if (n + 1) % 5 = 0 then ⊤ else _) _
        rw [if_pos h0]
      · intro b
        rw [hA]; dsimp only
        rw [Pieces.scratchSum_A, Pay.sum_step, Pay.init_sum, bins_eq m c ⟨n + 1, h⟩, tiles_eq m c ⟨n + 1, h⟩]
        show _ = (if (n + 1) % 5 = 0 then 0 else _) + _
        rw [if_pos h0]
    · by_cases h1 : (n + 1) % 5 = 4
      · have hC := outsAt0_C m c ⟨n + 1, h⟩ h0 h1
        constructor
        · intro b k
          rw [hC]; dsimp only
          rw [Pieces.scratchMin_C, Pay.minbin_step, bins_eq m c ⟨n + 1, h⟩, tiles_eq m c ⟨n + 1, h⟩]
          show min ((outsAt0 m c n _).2.2.1 (ix2 b k)) _ = min (if (n + 1) % 5 = 0 then ⊤ else _) _
          rw [if_neg h0, ihMin b k]
        · intro b
          rw [hC]; dsimp only
          rw [Pieces.scratchSum_C, Pay.sum_step, bins_eq m c ⟨n + 1, h⟩, tiles_eq m c ⟨n + 1, h⟩]
          show (outsAt0 m c n _).2.2.2 (ix2 b 0) + _ = (if (n + 1) % 5 = 0 then 0 else _) + _
          rw [if_neg h0, ihSum b]
      · have hB := outsAt0_B m c ⟨n + 1, h⟩ h0 h1
        constructor
        · intro b k
          rw [hB]; dsimp only
          rw [Pieces.scratchMin_B, Pay.minbin_step, bins_eq m c ⟨n + 1, h⟩, tiles_eq m c ⟨n + 1, h⟩]
          show min ((outsAt0 m c n _).2.2.1 (ix2 b k)) _ = min (if (n + 1) % 5 = 0 then ⊤ else _) _
          rw [if_neg h0, ihMin b k]
        · intro b
          rw [hB]; dsimp only
          rw [Pieces.scratchSum_B, Pay.sum_step, bins_eq m c ⟨n + 1, h⟩, tiles_eq m c ⟨n + 1, h⟩]
          show (outsAt0 m c n _).2.2.2 (ix2 b 0) + _ = (if (n + 1) % 5 = 0 then 0 else _) + _
          rw [if_neg h0, ihSum b]

/-- At the last tile of a half the output blocks receive the scratch contents. -/
theorem outs_at_last (c : Dev nD) (t : Fin cfg0.N) (h4 : t.val % 5 = 4) :
    (∀ (b : Fin 4) (k : Fin 256), (outsAt0 m c t.val t.isLt).1 (ix3 0 b k) = accMin (β m c) (X m c) t.val b k)
      ∧ (∀ b : Fin 4, (outsAt0 m c t.val t.isLt).2.1 (ix3 0 b 0) = accSum (β m c) (X m c) t.val b) := by
  have h0 : ¬ t.val % 5 = 0 := by omega
  obtain ⟨sMin, sSum⟩ := scratch_inv m c t.val t.isLt
  have hC := outsAt0_C m c t h0 h4
  constructor
  · intro b k
    rw [← sMin b k, hC]; dsimp only
    rw [Pieces.outMin_C, Pieces.scratchMin_C, Pay.out_min]
  · intro b
    rw [← sSum b, hC]; dsimp only
    rw [Pieces.outSum_C, Pieces.scratchSum_C, Pay.out_sum]

end Cert.KernelIdeal.Acc

end
-- ==== Proof.KernelFlush.lean ====
/-
  What the kernel call's two result arrays hold after the run. Each half `p` of the grid writes its block of each
  result once, after its last tile (grid point `5 p + 4`): block `p` of the first result is the half's running minimum
  per bin centre, block `p` of the second the half's running sum per image. The two blocks of each result tile it, so
  the arrays end holding exactly these values.
-/
import proofs.«142597_j42812234006906_2_alg».proof.Proof.KernelAcc

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Flush

open Cert.KernelIdeal Cert.KernelIdeal.Gen Cert.Chamfer

variable (m : (ℓ : Loc nD τ sig) → Buf (Elt Ideal) ℓ)

/-- The first result's block index at point `t` is `(t / 5, 0, 0)`: the half the point belongs to. -/
theorem min_index : ∀ t : Fin grid0.N, win0_2.index t 0 = t.val / 5 ∧ win0_2.index t 1 = 0 ∧ win0_2.index t 2 = 0 := by decide +kernel
/-- The same for the second result. -/
theorem sum_index : ∀ t : Fin grid0.N, win0_3.index t 0 = t.val / 5 ∧ win0_3.index t 1 = 0 ∧ win0_3.index t 2 = 0 := by decide +kernel

/-- Half `p`'s running minimum at bin centre `(q, r)`, the coordinates as natural numbers. -/
def gmin (c : Dev nD) (p q r : ℕ) : EReal :=
  if h : q < 4 ∧ r < 256 then accMin (Acc.β m c) (Acc.X m c) (5 * p + 4) ⟨q, h.1⟩ ⟨r, h.2⟩ else 0

/-- Half `p`'s running sum for image `q`. -/
def gsum (c : Dev nD) (p q : ℕ) : EReal :=
  if h : q < 4 then accSum (Acc.β m c) (Acc.X m c) (5 * p + 4) ⟨q, h⟩ else 0

/-- What the first result array ends holding. -/
def Gmin (c : Dev nD) : S2x4x256.Idx → EReal := fun i => gmin m c (i 0).val (i 1).val (i 2).val
/-- What the second result array ends holding. -/
def Gsum (c : Dev nD) : S2x4x1.Idx → EReal := fun i => gsum m c (i 0).val (i 1).val

theorem Gmin_apply (c : Dev nD) (p : Fin 2) (b : Fin 4) (k : Fin 256) :
    Gmin m c (ix3 p b k) = accMin (Acc.β m c) (Acc.X m c) (5 * p.val + 4) b k := by
  unfold Gmin gmin
  exact dif_pos ⟨b.isLt, k.isLt⟩

theorem Gsum_apply (c : Dev nD) (p : Fin 2) (b : Fin 4) :
    Gsum m c (ix3 p b (0 : Fin 1)) = accSum (Acc.β m c) (Acc.X m c) (5 * p.val + 4) b := by
  unfold Gsum gsum
  exact dif_pos b.isLt

/-- What a point that writes the first result back writes: its block of `Gmin`. -/
theorem flushedMin_eq (c : Dev nD) (t : Fin cfg0.N) (hf : (cfg0.win 2).flush t = true) :
    (dats m 0 c).flushed 2 t = ((cfg0.win 2).blk t).view.read (Elt Ideal) (Gmin m c) := by
  have h4 : t.val % 5 = 4 := (flush0_2 t).mp hf
  show (cfg0.win 2).cut (grid0.coords t) ((dats m 0 c).after 2 t) = _
  rw [after0_2]
  funext j
  rw [View.read_apply]
  have hj0 : (j 0).val < 1 := (j 0).isLt
  have hj1 : (j 1).val < 4 := (j 1).isLt
  have hj2 : (j 2).val < 256 := (j 2).isLt
  have hj : (j : S1x4x256.Idx) = ix3 (0 : Fin 1) (⟨(j 1).val, hj1⟩ : Fin 4) (⟨(j 2).val, hj2⟩ : Fin 256) := by
    funext a
    match a with
    | ⟨0, _⟩ => exact Fin.ext (by show (j 0).val = 0; omega)
    | ⟨1, _⟩ => rfl
    | ⟨2, _⟩ => rfl
  have e0 : ((((cfg0.win 2).blk t).view.emb j) 0).val = t.val / 5 := by
    show win0_2.index t 0 * 1 + 1 * (j 0).val = _
    rw [(min_index t).1]; omega
  have e1 : ((((cfg0.win 2).blk t).view.emb j) 1).val = (j 1).val := by
    show win0_2.index t 1 * 4 + 1 * (j 1).val = _
    rw [(min_index t).2.1]; omega
  have e2 : ((((cfg0.win 2).blk t).view.emb j) 2).val = (j 2).val := by
    show win0_2.index t 2 * 256 + 1 * (j 2).val = _
    rw [(min_index t).2.2]; omega
  have e5 : 5 * (t.val / 5) + 4 = t.val := by omega
  show (outsAt0 m c t.val t.isLt).1 j = Gmin m c (((cfg0.win 2).blk t).view.emb j)
  rw [show (outsAt0 m c t.val t.isLt).1 j = (outsAt0 m c t.val t.isLt).1 (ix3 (0 : Fin 1) (⟨(j 1).val, hj1⟩ : Fin 4) (⟨(j 2).val, hj2⟩ : Fin 256)) from congrArg _ hj]
  rw [(Acc.outs_at_last m c t h4).1]
  unfold Gmin gmin
  rw [e0, e1, e2, dif_pos ⟨hj1, hj2⟩, e5]

/-- What a point that writes the second result back writes: its block of `Gsum`. -/
theorem flushedSum_eq (c : Dev nD) (t : Fin cfg0.N) (hf : (cfg0.win 3).flush t = true) :
    (dats m 0 c).flushed 3 t = ((cfg0.win 3).blk t).view.read (Elt Ideal) (Gsum m c) := by
  have h4 : t.val % 5 = 4 := (flush0_3 t).mp hf
  show (cfg0.win 3).cut (grid0.coords t) ((dats m 0 c).after 3 t) = _
  rw [after0_3]
  funext j
  rw [View.read_apply]
  have hj0 : (j 0).val < 1 := (j 0).isLt
  have hj1 : (j 1).val < 4 := (j 1).isLt
  have hj2 : (j 2).val < 1 := (j 2).isLt
  have hj : (j : S1x4x1.Idx) = ix3 (0 : Fin 1) (⟨(j 1).val, hj1⟩ : Fin 4) (0 : Fin 1) := by
    funext a
    match a with
    | ⟨0, _⟩ => exact Fin.ext (by show (j 0).val = 0; omega)
    | ⟨1, _⟩ => rfl
    | ⟨2, _⟩ => exact Fin.ext (by show (j 2).val = 0; omega)
  have e0 : ((((cfg0.win 3).blk t).view.emb j) 0).val = t.val / 5 := by
    show win0_3.index t 0 * 1 + 1 * (j 0).val = _
    rw [(sum_index t).1]; omega
  have e1 : ((((cfg0.win 3).blk t).view.emb j) 1).val = (j 1).val := by
    show win0_3.index t 1 * 4 + 1 * (j 1).val = _
    rw [(sum_index t).2.1]; omega
  have e5 : 5 * (t.val / 5) + 4 = t.val := by omega
  show (outsAt0 m c t.val t.isLt).2.1 j = Gsum m c (((cfg0.win 3).blk t).view.emb j)
  rw [show (outsAt0 m c t.val t.isLt).2.1 j = (outsAt0 m c t.val t.isLt).2.1 (ix3 (0 : Fin 1) (⟨(j 1).val, hj1⟩ : Fin 4) (0 : Fin 1)) from congrArg _ hj]
  rw [(Acc.outs_at_last m c t h4).2]
  unfold Gsum gsum
  rw [e0, e1, dif_pos hj1, e5]

/-- The point that closes half `p`. -/
def lastOf (p : ℕ) (hp : p < 2) : Fin cfg0.N := ⟨5 * p + 4, by have hN : cfg0.N = 10 := N_0; omega⟩

/-- THE FIRST RESULT ARRAY after the run. -/
theorem finalMin (c : Dev nD) : (dats m 0 c).arrAt 2 cfg0.N = Gmin m c :=
  (dats m 0 c).arrAt_eq_of_cover 2 (Gmin m c) (flushedMin_eq m c) fun i => by
    have hi0 : (i 0).val < 2 := (i 0).isLt
    have hi1 : (i 1).val < 4 := (i 1).isLt
    have hi2 : (i 2).val < 256 := (i 2).isLt
    refine ⟨lastOf (i 0).val hi0, (flush0_2 _).mpr (by show (5 * (i 0).val + 4) % 5 = 4; omega), ?_⟩
    show i ∈ ((View.whole main_v1_0).slice (win0_2.rect (lastOf (i 0).val hi0))).set
    rw [View.set_slice_whole, Rect.mem_set_unit]
    have hq : (lastOf (i 0).val hi0).val / 5 = (i 0).val := by show (5 * (i 0).val + 4) / 5 = (i 0).val; omega
    intro a
    match a with
    | ⟨0, _⟩ =>
      show win0_2.index (lastOf (i 0).val hi0) 0 * 1 ≤ (i 0).val ∧ (i 0).val < win0_2.index (lastOf (i 0).val hi0) 0 * 1 + 1
      rw [(min_index _).1, hq]; omega
    | ⟨1, _⟩ =>
      show win0_2.index (lastOf (i 0).val hi0) 1 * 4 ≤ (i 1).val ∧ (i 1).val < win0_2.index (lastOf (i 0).val hi0) 1 * 4 + 4
      rw [(min_index _).2.1]; omega
    | ⟨2, _⟩ =>
      show win0_2.index (lastOf (i 0).val hi0) 2 * 256 ≤ (i 2).val ∧ (i 2).val < win0_2.index (lastOf (i 0).val hi0) 2 * 256 + 256
      rw [(min_index _).2.2]; omega

/-- THE SECOND RESULT ARRAY after the run. -/
theorem finalSum (c : Dev nD) : (dats m 0 c).arrAt 3 cfg0.N = Gsum m c :=
  (dats m 0 c).arrAt_eq_of_cover 3 (Gsum m c) (flushedSum_eq m c) fun i => by
    have hi0 : (i 0).val < 2 := (i 0).isLt
    have hi1 : (i 1).val < 4 := (i 1).isLt
    have hi2 : (i 2).val < 1 := (i 2).isLt
    refine ⟨lastOf (i 0).val hi0, (flush0_3 _).mpr (by show (5 * (i 0).val + 4) % 5 = 4; omega), ?_⟩
    show i ∈ ((View.whole main_v1_1).slice (win0_3.rect (lastOf (i 0).val hi0))).set
    rw [View.set_slice_whole, Rect.mem_set_unit]
    have hq : (lastOf (i 0).val hi0).val / 5 = (i 0).val := by show (5 * (i 0).val + 4) / 5 = (i 0).val; omega
    intro a
    match a with
    | ⟨0, _⟩ =>
      show win0_3.index (lastOf (i 0).val hi0) 0 * 1 ≤ (i 0).val ∧ (i 0).val < win0_3.index (lastOf (i 0).val hi0) 0 * 1 + 1
      rw [(sum_index _).1, hq]; omega
    | ⟨1, _⟩ =>
      show win0_3.index (lastOf (i 0).val hi0) 1 * 4 ≤ (i 1).val ∧ (i 1).val < win0_3.index (lastOf (i 0).val hi0) 1 * 4 + 4
      rw [(sum_index _).2.1]; omega
    | ⟨2, _⟩ =>
      show win0_3.index (lastOf (i 0).val hi0) 2 * 1 ≤ (i 2).val ∧ (i 2).val < win0_3.index (lastOf (i 0).val hi0) 2 * 1 + 1
      rw [(sum_index _).2.2]; omega

end Cert.KernelIdeal.Flush

end
-- ==== Proof.KernelTailDef.lean ====
/-
  The host operations that follow the kernel call, as one function of the call's two result arrays and of the pixel
  argument: the two halves' running minima joined by a minimum and their running sums by a sum; the mean over the bin
  centres plus the mean over the pixels, per image; that divided by the square of the image's largest pixel; the mean
  over the four images, times ten; recast as a one-entry vector.
-/
import proofs.«142597_j42812234006906_2_alg».proof.Proof.Gen.KernelIdeal

noncomputable section

namespace Cert.KernelIdeal.Tail

open Idealize.ShloMosaic Cert.KernelIdeal Cert.KernelIdeal.Gen

variable {F : FTy → Type} [FloatOps F]

/-- The scalar the host operations compute, before the final recast. -/
def lossOf (o0 : FVec F S2x4x256 .f32) (o1 : FVec F S2x4x1 .f32) (a0 : FVec F S4x1x240x320 .f32) : FVec F S_ .f32 :=
  mulf (Host.divf
      (Host.reduceAdd
        (Host.divf
          (addf
            (Host.divf
              (Host.reduceAdd (Host.reduce FloatOps.minimumf o0 (constant S_ .f32 0x7F800000#32) reducesTo_S2x4x256_S4x256_d0 h_S_)
                (constant S_ .f32 0x00000000#32) reducesTo_S4x256_S4_d1 h_S_)
              (broadcastInDim S4 ![] bcast_S_S4 (constant S_ .f32 0x43800000#32)))
            (Host.divf
              (shapeCast S4 (Host.reduceAdd o1 (constant S_ .f32 0x00000000#32) reducesTo_S2x4x1_S4x1_d0 h_S_) shapeCasts_S4x1_S4)
              (broadcastInDim S4 ![] bcast_S_S4 (constant S_ .f32 0x47960000#32))))
          (mulf (Host.reduce FloatOps.maximumf a0 (constant S_ .f32 0xFF800000#32) reducesTo_S4x1x240x320_S4_d1_2_3 h_S_)
            (Host.reduce FloatOps.maximumf a0 (constant S_ .f32 0xFF800000#32) reducesTo_S4x1x240x320_S4_d1_2_3 h_S_)))
        (constant S_ .f32 0x00000000#32) reducesTo_S4_S_d0 h_S_)
      (constant S_ .f32 0x40800000#32))
    (constant S_ .f32 0x41200000#32)

/-- The program's result: that scalar as a vector of one entry. -/
def resultOf (o0 : FVec F S2x4x256 .f32) (o1 : FVec F S2x4x1 .f32) (a0 : FVec F S4x1x240x320 .f32) : FVec F S1 .f32 :=
  shapeCast S1 (lossOf o0 o1 a0) shapeCasts_S_S1

end Cert.KernelIdeal.Tail

end
-- ==== Proof.KernelTailValue.lean ====
/-
  The host operations that follow the kernel call, read at an index at the ideal values (every float an extended
  real, every operation exact).

  Stage by stage: the minimum over the two halves of the first result array is a fold of `min` from +∞; the sum over
  the two halves of the second is a finite sum; its recast from [4, 1] to [4] reads the same entry; the sum over the
  256 bin centres and the sum over the four images are finite sums from zero; a broadcast constant reads the constant;
  quotients, sums and products are taken entry by entry. Composed, the scalar is the mean over the four images of
  (mean of the joined minima + mean of the joined sums) / (largest pixel)², times the last constant.
-/
import proofs.«142597_j42812234006906_2_alg».proof.Proof.KernelTailDef
import proofs.«142597_j42812234006906_2_alg».proof.Proof.LibMinReduce
import Idealize.ShloMosaic.Lib.ValueIdx
import Idealize.ShloMosaic.Lib.Pipeline.Value
import Idealize.ShloMosaic.Lib.IdealHost
import Idealize.ShloMosaic.PureOps.Ideal.Laws

noncomputable section

namespace Cert.KernelIdeal.Tail

open Idealize.ShloMosaic Idealize.ShloMosaic.ValueIdx Cert.KernelIdeal Cert.KernelIdeal.Gen Finset

/-- The f32 word of +∞ is the extended real `⊤`. -/
theorem ofBits_posInf_f32 : Ideal.ofBits .f32 0x7F800000#32 = (⊤ : EReal) := by
  simp [Ideal.ofBits, Ideal.ieee]

/-- The minimum over the two halves (axis 0) of a [2, 4, 256] array from +∞, at (b, k): the fold of `min` from `⊤`
    over the half `c` of the entries (c, b, k). -/
theorem minHalves_apply (o0 : FVec Ideal S2x4x256 .f32) (b : Fin 4) (k : Fin 256) :
    Host.reduce FloatOps.minimumf o0 (constant (F := Ideal) S_ .f32 0x7F800000#32) reducesTo_S2x4x256_S4x256_d0 h_S_
        (ix2 b k)
      = univ.fold min ⊤ fun c : Fin 2 => o0 (ix3 c b k) := by
  rw [Cert.MinReduce.hostReduce_minimumf_single o0 _ reducesTo_S2x4x256_S4x256_d0 (by decide) h_S_ (ix2 b k),
    constant_apply, ofBits_posInf_f32]
  refine congrArg (Finset.fold min ⊤ · univ) (funext fun c => congrArg o0 (funext fun a => Fin.ext ?_))
  match a with | ⟨0, _⟩ => rfl | ⟨1, _⟩ => rfl | ⟨2, _⟩ => rfl

/-- The sum over the two halves (axis 0) of a [2, 4, 1] array from zero, at (b, 0). -/
theorem sumHalves_apply (o1 : FVec Ideal S2x4x1 .f32) (b : Fin 4) :
    Host.reduceAdd o1 (constant (F := Ideal) S_ .f32 0x00000000#32) reducesTo_S2x4x1_S4x1_d0 h_S_ (ix2 b (0 : Fin 1))
      = ∑ c : Fin 2, o1 (ix3 c b (0 : Fin 1)) := by
  rw [hostReduceAdd_apply, Ideal.hostReduceAdd_single reducesTo_S2x4x1_S4x1_d0 (by decide), constant_apply,
    Ideal.ofBits_zero_f32, zero_add]
  refine Finset.sum_congr rfl fun c _ => congrArg o1 (funext fun a => Fin.ext ?_)
  match a with | ⟨0, _⟩ => rfl | ⟨1, _⟩ => rfl | ⟨2, _⟩ => rfl

/-- A [4, 1] array recast as [4] reads, at b, the entry (b, 0): the two have the same row-major position. -/
theorem castColumn_apply (y : FVec Ideal S4x1 .f32) (b : Fin 4) :
    shapeCast S4 y shapeCasts_S4x1_S4 (ix1 b) = y (ix2 b (0 : Fin 1)) :=
  shapeCast_apply y shapeCasts_S4x1_S4 (ix1 b) (ix2 b (0 : Fin 1))
    (by rewrite [Shape.rowMajor_val_two, Shape.rowMajor_val_one]; show b.val * 1 + 0 = b.val; omega)

/-- The sum over the 256 bin centres (axis 1) of a [4, 256] array from zero, at b. -/
theorem sumBins_apply (y : FVec Ideal S4x256 .f32) (b : Fin 4) :
    Host.reduceAdd y (constant (F := Ideal) S_ .f32 0x00000000#32) reducesTo_S4x256_S4_d1 h_S_ (ix1 b)
      = ∑ k : Fin 256, y (ix2 b k) := by
  rw [hostReduceAdd_apply, Ideal.hostReduceAdd_single reducesTo_S4x256_S4_d1 (by decide), constant_apply,
    Ideal.ofBits_zero_f32, zero_add]
  refine Finset.sum_congr rfl fun k _ => congrArg y (funext fun a => Fin.ext ?_)
  match a with | ⟨0, _⟩ => rfl | ⟨1, _⟩ => rfl

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

/-- The sum of all four entries of a [4] array from zero, into the scalar. -/
theorem sumImages_apply (y : FVec Ideal S4 .f32) (i : S_.Idx) :
    Host.reduceAdd y (constant (F := Ideal) S_ .f32 0x00000000#32) reducesTo_S4_S_d0 h_S_ i = ∑ b : Fin 4, y (ix1 b) := by
  rw [hostReduceAdd_apply, Ideal.hostReduceAdd_total reducesTo_S4_S_d0 (fun b => b.elim0), constant_apply,
    Ideal.ofBits_zero_f32, zero_add]
  exact sum_idx1 y

/-- A scalar constant broadcast to [4] reads the constant's extended real everywhere. -/
theorem broadcastConst_apply (w : BitVec 32) (j : S4.Idx) :
    broadcastInDim S4 ![] bcast_S_S4 (constant (F := Ideal) S_ .f32 w) j = Ideal.ofBits .f32 w := by
  rw [broadcastInDim_scalar_apply]; rfl

/-- One image's value, with the per-image largest pixel as a variable `m`: the mean of the joined minima plus the mean
    of the joined sums, divided by `m` squared. -/
theorem perImage_apply (o0 : FVec Ideal S2x4x256 .f32) (o1 : FVec Ideal S2x4x1 .f32) (m : FVec Ideal S4 .f32) (b : Fin 4) :
    Host.divf
        (addf
          (Host.divf
            (Host.reduceAdd (Host.reduce FloatOps.minimumf o0 (constant (F := Ideal) S_ .f32 0x7F800000#32) reducesTo_S2x4x256_S4x256_d0 h_S_)
              (constant (F := Ideal) S_ .f32 0x00000000#32) reducesTo_S4x256_S4_d1 h_S_)
            (broadcastInDim S4 ![] bcast_S_S4 (constant (F := Ideal) S_ .f32 0x43800000#32)))
          (Host.divf
            (shapeCast S4 (Host.reduceAdd o1 (constant (F := Ideal) S_ .f32 0x00000000#32) reducesTo_S2x4x1_S4x1_d0 h_S_) shapeCasts_S4x1_S4)
            (broadcastInDim S4 ![] bcast_S_S4 (constant (F := Ideal) S_ .f32 0x47960000#32))))
        (mulf m m) (ix1 b)
      = Ideal.div
          (Ideal.div (∑ k : Fin 256, univ.fold min ⊤ fun c : Fin 2 => o0 (ix3 c b k)) (Ideal.ofBits .f32 0x43800000#32)
            + Ideal.div (∑ c : Fin 2, o1 (ix3 c b (0 : Fin 1))) (Ideal.ofBits .f32 0x47960000#32))
          (m (ix1 b) * m (ix1 b)) := by
  rw [hostDivf_apply, addf_apply, hostDivf_apply, hostDivf_apply, broadcastConst_apply, broadcastConst_apply,
    sumBins_apply, castColumn_apply, sumHalves_apply, mulf_apply,
    Finset.sum_congr rfl fun k _ => minHalves_apply o0 b k]

/-- THE HOST OPERATIONS AFTER THE CALL, as one expression in the entries of the call's two result arrays and the
    per-image largest pixel. -/
theorem lossOf_apply (o0 : FVec Ideal S2x4x256 .f32) (o1 : FVec Ideal S2x4x1 .f32) (a0 : FVec Ideal S4x1x240x320 .f32) :
    lossOf (F := Ideal) o0 o1 a0 = fun _ =>
      Ideal.div (∑ b : Fin 4,
          Ideal.div
            (Ideal.div (∑ k : Fin 256, univ.fold min ⊤ fun c : Fin 2 => o0 (ix3 c b k)) (Ideal.ofBits .f32 0x43800000#32)
              + Ideal.div (∑ c : Fin 2, o1 (ix3 c b (0 : Fin 1))) (Ideal.ofBits .f32 0x47960000#32))
            (Host.reduce FloatOps.maximumf a0 (constant (F := Ideal) S_ .f32 0xFF800000#32) reducesTo_S4x1x240x320_S4_d1_2_3 h_S_ (ix1 b)
              * Host.reduce FloatOps.maximumf a0 (constant (F := Ideal) S_ .f32 0xFF800000#32) reducesTo_S4x1x240x320_S4_d1_2_3 h_S_ (ix1 b)))
        (Ideal.ofBits .f32 0x40800000#32) * Ideal.ofBits .f32 0x41200000#32 := by
  funext i
  unfold lossOf
  generalize Host.reduce FloatOps.maximumf a0 (constant (F := Ideal) S_ .f32 0xFF800000#32)
    reducesTo_S4x1x240x320_S4_d1_2_3 h_S_ = m
  rw [mulf_apply, hostDivf_apply, constant_apply, constant_apply, sumImages_apply,
    Finset.sum_congr rfl fun b _ => perImage_apply o0 o1 m b]

end Cert.KernelIdeal.Tail

end
-- ==== Proof.KernelRun.lean ====
/-
  The kernel program's run, read: the result buffer ends holding the host operations' function (`Tail.resultOf`) of the
  two result arrays of the kernel call — the halves' running minima and running sums — and of the pixel argument; that
  value is the tiled loss `kernelLoss` as a one-entry vector; the two arguments end unchanged.
-/
import proofs.«142597_j42812234006906_2_alg».proof.Proof.KernelFlush
import proofs.«142597_j42812234006906_2_alg».proof.Proof.KernelTailValue

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.Chamfer

section AnyValues

variable {F : FTy → Type} [FloatOps F]
variable (m : (ℓ : Loc nD τ sig) → Buf (Elt F) ℓ)

/-- The host operations after the call, run from any buffer contents `W`, leave in the result buffer their function of the
    call's two result arrays and of the pixel argument as `W` has them. -/
theorem tail_of (W : Valuation τ sig (Elt F)) :
    StableHlo.after (List.flatten [hostOps1]) W (Proc.devRef .tc main_v17)
      = Tail.resultOf (W (Proc.devRef .tc main_v1_0)) (W (Proc.devRef .tc main_v1_1)) (W (Proc.devRef .tc main_arg0)) := by
  simp only [List.flatten_cons, List.flatten_nil, List.append_nil]
  after_results
  rfl

/-- After the region the two result arrays are at what the grid's write-backs left and the pixel argument is as launched. -/
theorem tail_eq (c : Dev nD) :
    Pipeline.afterTail₀ cfgs (dats m) 0 (V0 m) [hostOps1] c main_v17
      = Tail.resultOf ((dats m 0 c).arrAt 2 cfg0.N) ((dats m 0 c).arrAt 3 cfg0.N) (m ((c : Thread nD τ).loc main_arg0)) := by
  unfold Pipeline.afterTail₀
  rw [tail_of]
  rw [Pipeline.withArrays_arr spec0 launch0.win.arr_inj c _ _ 2, Pipeline.withArrays_arr spec0 launch0.win.arr_inj c _ _ 3,
    Pipeline.withArrays_of_ne _ c (V0 m c) _ main_arg0 (by exact (by decide : ∀ w, Pipeline.arrRef spec0 w ≠ main_arg0))]
  exact congrArg _ (V_main_arg0 m c)

end AnyValues

variable (m : (ℓ : Loc nD τ sig) → Buf (Elt Ideal) ℓ) (ρ : Dev nD → PrngReg)

/-- The image scales as the kernel program takes them: the reduce-max of the pixel argument over the channel and the two
    pixel axes. -/
def scaleK (a0 : FVec Ideal S4x1x240x320 .f32) (b : Fin 4) : EReal :=
  Host.reduce (FloatOps.maximumf (F := Ideal) (φ := .f32)) a0 (constant (F := Ideal) S_ .f32 0xFF800000#32) reducesTo_S4x1x240x320_S4_d1_2_3 h_S_ (ix1 b)

/-- The tiled loss as the kernel program computes it. -/
def loss (c : Dev nD) : EReal :=
  kernelLoss (Acc.β m c) (Acc.X m c) (scaleK (m ((c : Thread nD τ).loc main_arg0)))
    (Ideal.ofBits .f32 0x43800000#32) (Ideal.ofBits .f32 0x47960000#32) (Ideal.ofBits .f32 0x40800000#32) (Ideal.ofBits .f32 0x41200000#32)

/-- The host operations' function of the halves' running values IS the tiled loss. -/
theorem result_value (c : Dev nD) :
    Tail.resultOf (F := Ideal) (Flush.Gmin m c) (Flush.Gsum m c) (m ((c : Thread nD τ).loc main_arg0))
      = shapeCast S1 (fun _ : S_.Idx => loss m c) shapeCasts_S_S1 := by
  unfold Tail.resultOf
  rw [Tail.lossOf_apply]
  unfold loss kernelLoss scaleK
  simp only [Flush.Gmin_apply, Flush.Gsum_apply]

/-- THE RUN, READ: every weakly fair execution terminates with the result buffer at the tiled loss and the arguments
    unchanged. -/
theorem run : θ_run defs (onTc (τ := τ) (main (F := Ideal))) ⟨m, fun _ => 0, ρ⟩ fun r => ∀ c : Dev nD,
      r.2.mem ((c : Thread nD τ).loc main_v17) = shapeCast S1 (fun _ : S_.Idx => loss m c) shapeCasts_S_S1
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v17 (Pipeline.mem_restRefs_of main_v17 (by decide) (by decide))).trans
          ((tail_eq m c).trans (by rw [Flush.finalMin, Flush.finalSum]; exact result_value m c)),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.Run

end
-- ==== Proof.RefValue.lean ====
/-
  The reference program's result, read operation by operation at the ideal values (every float an extended real, every
  operation exact), brought to the closed form `Cert.Chamfer.refLoss`.

  Bottom up. The scale of image `b` is the maximum of its pixels, kept as the reduce term it is and only broadcast
  and reshaped afterwards; every pixel and every bin centre of image `b` is divided by it; the squared differences of the
  scaled bin centres and the scaled pixels fill a 4 × 256 × 76800 array; its minima along the pixel axis and along the
  bin-centre axis are folds of `min` from `⊤`; the two means, their sum over the four images, the division by four and the
  factor ten follow the program line by line.
-/
import proofs.«142597_j42812234006906_2_alg».proof.Proof.Gen.ReferenceIdeal.Read
import proofs.«142597_j42812234006906_2_alg».proof.Proof.Spec
import proofs.«142597_j42812234006906_2_alg».proof.Proof.LibMinReduce
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen
  Cert.ReferenceIdeal.Read Cert.Chamfer Finset

/-- The word of positive infinity reads as the top element. -/
theorem ofBits_inf : Ideal.ofBits .f32 0x7F800000#32 = (⊤ : EReal) := by
  simp [Ideal.ofBits, Ideal.ieee]

/-- The scale of image `b`: the maximum over its pixels, as the program's reduce term. -/
abbrev scale (a0 : FVec Ideal S4x1x240x320 .f32) (b : Fin 4) : EReal :=
  val_main_v0 (F := Ideal) a0 (ix2 b 0)

/-- The scale broadcast back over the image: at an index whose image coordinate is `b` it is the scale of `b`. -/
theorem v2_at (a0 : FVec Ideal S4x1x240x320 .f32) (i : S4x1x240x320.Idx) (b : Fin 4) (hb : (i 0).val = b.val) :
    val_main_v2 (F := Ideal) a0 i = scale a0 b := by
  rw [val_main_v2_apply, val_main_v1_apply]
  exact congrArg (val_main_v0 (F := Ideal) a0)
    (funext fun a => Fin.ext (by match a with | ⟨0, _⟩ => exact hb | ⟨1, _⟩ => rfl))

/-- The scale broadcast over the bin centres of image `b`. -/
theorem v5_at (a0 : FVec Ideal S4x1x240x320 .f32) (b : Fin 4) (m : Fin 256) :
    val_main_v5 (F := Ideal) a0 (ix2 b m) = scale a0 b := by
  rw [val_main_v5_apply, val_main_v4_apply, val_main_v1_apply]
  exact congrArg (val_main_v0 (F := Ideal) a0)
    (funext fun a => Fin.ext (by
      match a with
      | ⟨0, _⟩ => show (b.val * 1 + 0) / 1 = b.val; omega
      | ⟨1, _⟩ => rfl))

/-- A scaled bin centre. -/
theorem v6_at (a0 : FVec Ideal S4x1x240x320 .f32) (a1 : FVec Ideal S4x256 .f32) (b : Fin 4) (m : Fin 256) :
    val_main_v6 (F := Ideal) a0 a1 (ix2 b m) = Ideal.div (a1 (ix2 b m)) (scale a0 b) := by
  rw [val_main_v6_apply, v5_at]; rfl

/-- A scaled pixel: pixel `n` of image `b` in the flattened 4 × 76800 layout, divided by the scale of `b`. -/
theorem v7_at (a0 : FVec Ideal S4x1x240x320 .f32) (b : Fin 4) (n : Fin 76800) :
    val_main_v7 (F := Ideal) a0 (ix2 b n)
      = Ideal.div (shapeCast S4x76800 a0 shapeCasts_S4x1x240x320_S4x76800 (ix2 b n)) (scale a0 b) := by
  have hb : ((idx_main_v7 (ix2 b n)) 0).val = b.val := by
    have h0 : b.val < 4 := b.isLt
    have h1 : n.val < 76800 := n.isLt
    show (b.val * 76800 + n.val) / 76800 = b.val
    omega
  have hcast : shapeCast S4x76800 a0 shapeCasts_S4x1x240x320_S4x76800 (ix2 b n) = a0 (idx_main_v7 (ix2 b n)) :=
    shapeCast_apply a0 shapeCasts_S4x1x240x320_S4x76800 (ix2 b n) (idx_main_v7 (ix2 b n))
      (by
        rewrite [Shape.rowMajor_val_four, Shape.rowMajor_val_two]
        have h0 : b.val < 4 := b.isLt
        have h1 : n.val < 76800 := n.isLt
        show (((b.val * 76800 + n.val) / 76800 * 1 + 0) * 240 + (b.val * 76800 + n.val) / 320 % 240) * 320
            + (b.val * 76800 + n.val) % 320 = b.val * 76800 + n.val
        omega)
  rw [val_main_v7_apply, val_main_v3_apply, v2_at a0 _ b hb, hcast]; rfl

/-- The squared difference of scaled bin centre `m` and scaled pixel `n` of image `b`. -/
theorem v13_at (a0 : FVec Ideal S4x1x240x320 .f32) (a1 : FVec Ideal S4x256 .f32) (b : Fin 4) (m : Fin 256)
    (n : Fin 76800) :
    val_main_v13 (F := Ideal) a0 a1 (ix3 b m n)
      = sq (val_main_v6 (F := Ideal) a0 a1 (ix2 b m)) (val_main_v7 (F := Ideal) a0 (ix2 b n)) := by
  have e1 : idx_main_v8 (idx_main_v10 (ix3 b m n)) = ix2 b m :=
    funext fun a => Fin.ext (by match a with | ⟨0, _⟩ => rfl | ⟨1, _⟩ => rfl)
  have e2 : idx_main_v9 (idx_main_v11 (ix3 b m n)) = ix2 b n :=
    funext fun a => Fin.ext (by match a with | ⟨0, _⟩ => rfl | ⟨1, _⟩ => rfl)
  rw [val_main_v13_apply, val_main_v12_apply, val_main_v10_apply, val_main_v8_apply, val_main_v11_apply,
    val_main_v9_apply, e1, e2]
  rfl

/-- For bin centre `m` of image `b`: the minimum over the pixels, a fold of `min` from `⊤`. -/
theorem v14_at (a0 : FVec Ideal S4x1x240x320 .f32) (a1 : FVec Ideal S4x256 .f32) (b : Fin 4) (m : Fin 256) :
    val_main_v14 (F := Ideal) a0 a1 (ix2 b m)
      = univ.fold min ⊤ fun n : Fin 76800 => val_main_v13 (F := Ideal) a0 a1 (ix3 b m n) := by
  unfold val_main_v14
  generalize val_main_v13 (F := Ideal) a0 a1 = y
  rw [Cert.MinReduce.hostReduce_minimumf_single y _ reducesTo_S4x256x76800_S4x256_d2 (by decide) h_S_ (ix2 b m)]
  refine (congrArg (fun c => univ.fold min c _) ?_).trans (Finset.fold_congr fun n _ => ?_)
  · exact ofBits_inf
  · exact congrArg y (funext fun a => Fin.ext (by match a with | ⟨0, _⟩ => rfl | ⟨1, _⟩ => rfl | ⟨2, _⟩ => rfl))

/-- For pixel `n` of image `b`: the minimum over the bin centres, a fold of `min` from `⊤`. -/
theorem v18_at (a0 : FVec Ideal S4x1x240x320 .f32) (a1 : FVec Ideal S4x256 .f32) (b : Fin 4) (n : Fin 76800) :
    val_main_v18 (F := Ideal) a0 a1 (ix2 b n)
      = univ.fold min ⊤ fun m : Fin 256 => val_main_v13 (F := Ideal) a0 a1 (ix3 b m n) := by
  unfold val_main_v18
  generalize val_main_v13 (F := Ideal) a0 a1 = y
  rw [Cert.MinReduce.hostReduce_minimumf_single y _ reducesTo_S4x256x76800_S4x76800_d1 (by decide) h_S_ (ix2 b n)]
  refine (congrArg (fun c => univ.fold min c _) ?_).trans (Finset.fold_congr fun m _ => ?_)
  · exact ofBits_inf
  · exact congrArg y (funext fun a => Fin.ext (by match a with | ⟨0, _⟩ => rfl | ⟨1, _⟩ => rfl | ⟨2, _⟩ => rfl))

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum over the bin centres of image `b` of the distance to the nearest pixel. -/
theorem v15_at (a0 : FVec Ideal S4x1x240x320 .f32) (a1 : FVec Ideal S4x256 .f32) (b : Fin 4) :
    val_main_v15 (F := Ideal) a0 a1 (ix1 b) = ∑ m : Fin 256, val_main_v14 (F := Ideal) a0 a1 (ix2 b m) := by
  rw [val_main_v15_apply, val_main_cst_1_apply, Ideal.ofBits_def, Ideal.ofBits_zero_f32, zero_add]
  refine Finset.sum_congr rfl fun m _ => ?_
  exact congrArg (val_main_v14 (F := Ideal) a0 a1)
    (funext fun a => Fin.ext (by match a with | ⟨0, _⟩ => rfl | ⟨1, _⟩ => rfl))

/-- The sum over the pixels of image `b` of the distance to the nearest bin centre. -/
theorem v19_at (a0 : FVec Ideal S4x1x240x320 .f32) (a1 : FVec Ideal S4x256 .f32) (b : Fin 4) :
    val_main_v19 (F := Ideal) a0 a1 (ix1 b) = ∑ n : Fin 76800, val_main_v18 (F := Ideal) a0 a1 (ix2 b n) := by
  rw [val_main_v19_apply, val_main_cst_4_apply, Ideal.ofBits_def, Ideal.ofBits_zero_f32, zero_add]
  refine Finset.sum_congr rfl fun n _ => ?_
  exact congrArg (val_main_v18 (F := Ideal) a0 a1)
    (funext fun a => Fin.ext (by match a with | ⟨0, _⟩ => rfl | ⟨1, _⟩ => rfl))

/-- The mean over the bin centres: the sum divided by the constant 256. -/
theorem v17_at (a0 : FVec Ideal S4x1x240x320 .f32) (a1 : FVec Ideal S4x256 .f32) (b : Fin 4) :
    val_main_v17 (F := Ideal) a0 a1 (ix1 b)
      = Ideal.div (val_main_v15 (F := Ideal) a0 a1 (ix1 b)) (Ideal.ofBits .f32 0x43800000#32) := by
  rw [val_main_v17_apply, val_main_v16_apply, val_main_cst_2_apply]; rfl

/-- The mean over the pixels: the sum divided by the constant 76800. -/
theorem v21_at (a0 : FVec Ideal S4x1x240x320 .f32) (a1 : FVec Ideal S4x256 .f32) (b : Fin 4) :
    val_main_v21 (F := Ideal) a0 a1 (ix1 b)
      = Ideal.div (val_main_v19 (F := Ideal) a0 a1 (ix1 b)) (Ideal.ofBits .f32 0x47960000#32) := by
  rw [val_main_v21_apply, val_main_v20_apply, val_main_cst_5_apply]; rfl

/-- The loss of image `b`: the two means added, everything written from the arguments. -/
theorem v22_at (a0 : FVec Ideal S4x1x240x320 .f32) (a1 : FVec Ideal S4x256 .f32) (b : Fin 4) :
    val_main_v22 (F := Ideal) a0 a1 (ix1 b)
      = Ideal.div (∑ m : Fin 256, univ.fold min ⊤ fun n : Fin 76800 =>
            sq (Ideal.div (a1 (ix2 b m)) (scale a0 b))
              (Ideal.div (shapeCast S4x76800 a0 shapeCasts_S4x1x240x320_S4x76800 (ix2 b n)) (scale a0 b)))
          (Ideal.ofBits .f32 0x43800000#32)
        + Ideal.div (∑ n : Fin 76800, univ.fold min ⊤ fun m : Fin 256 =>
            sq (Ideal.div (a1 (ix2 b m)) (scale a0 b))
              (Ideal.div (shapeCast S4x76800 a0 shapeCasts_S4x1x240x320_S4x76800 (ix2 b n)) (scale a0 b)))
          (Ideal.ofBits .f32 0x47960000#32) := by
  rw [val_main_v22_apply, v17_at, v21_at, v15_at, v19_at]
  simp only [v14_at, v18_at, v13_at, v6_at, v7_at]
  rfl

/-- The sum of the four images' losses. -/
theorem v23_at (a0 : FVec Ideal S4x1x240x320 .f32) (a1 : FVec Ideal S4x256 .f32) (i : S_.Idx) :
    val_main_v23 (F := Ideal) a0 a1 i = ∑ b : Fin 4, val_main_v22 (F := Ideal) a0 a1 (ix1 b) := by
  rw [val_main_v23_apply, val_main_cst_6_apply, Ideal.ofBits_def, Ideal.ofBits_zero_f32, zero_add]
  exact sum_idx1 _

/-- The reference's result (the scalar before its final reshape) is the closed form `refLoss` of the bin centres, the
    flattened pixels and the images' scales, with the program's four constants. -/
theorem ref_value (a0 : FVec Ideal S4x1x240x320 .f32) (a1 : FVec Ideal S4x256 .f32) :
    val_main_v25 (F := Ideal) a0 a1 = fun _ =>
      refLoss (fun b m => a1 (ix2 b m))
        (fun b n => shapeCast S4x76800 a0 shapeCasts_S4x1x240x320_S4x76800 (ix2 b n))
        (fun b => Host.reduce (FloatOps.maximumf (F := Ideal) (φ := .f32)) a0 (constant (F := Ideal) S_ .f32 0xFF800000#32)
          reducesTo_S4x1x240x320_S4x1_d2_3 h_S_ (ix2 b 0))
        (Ideal.ofBits .f32 0x43800000#32) (Ideal.ofBits .f32 0x47960000#32) (Ideal.ofBits .f32 0x40800000#32)
        (Ideal.ofBits .f32 0x41200000#32) := by
  funext i
  rw [val_main_v25_apply, val_main_v24_apply, v23_at, val_main_cst_7_apply, val_main_cst_8_apply]
  simp only [v22_at]
  rfl

end Cert.ReferenceIdeal.RefValue

end
-- ==== Proof.LibFolds.lean ====
/-
  Folds and sums over the fibres of a reduction, and maxima of extended reals.

  A reduction over several axes reads, at a result index `j`, the source indices whose kept coordinates are `j`
  (the fibre of `j`). When the fibre is listed without repetition by a map `e` from a finite type, a sum or a
  commutative, associative fold over the fibre is the same sum or fold over that type. A fold of `max` from `⊥`
  commutes with every monotone map that fixes `⊥`, and over a nonempty family of real numbers it is a real number.
-/
import Idealize.ShloMosaic.PureOps.Ideal

namespace Cert.LibFolds

open Finset

section Fibre

variable {ι τ κ : Type} [Fintype ι] [Fintype κ]

/-- The fibre of `j` under `drop` is the image of a map `e` that lands in it and reaches all of it. -/
theorem filter_eq_image [DecidableEq ι] (drop : ι → τ) (j : τ) [DecidablePred fun i => drop i = j] (e : κ → ι)
    (hmem : ∀ k, drop (e k) = j) (hsurj : ∀ i, drop i = j → ∃ k, e k = i) :
    (univ.filter fun i => drop i = j) = univ.image e := by
  ext i
  simp only [mem_filter, mem_univ, true_and, mem_image]
  exact ⟨hsurj i, fun ⟨k, hk⟩ => hk ▸ hmem k⟩

/-- A sum over the fibre is the sum over the parameters of an injective listing of it. -/
theorem sum_fibre {M : Type} [AddCommMonoid M] (drop : ι → τ) (j : τ) [DecidablePred fun i => drop i = j] (e : κ → ι)
    (hinj : Function.Injective e) (hmem : ∀ k, drop (e k) = j) (hsurj : ∀ i, drop i = j → ∃ k, e k = i) (x : ι → M) :
    ∑ i ∈ univ.filter (fun i => drop i = j), x i = ∑ k, x (e k) := by
  classical
  rw [filter_eq_image drop j e hmem hsurj, sum_image fun a _ b _ h => hinj h]

/-- A commutative, associative fold over the fibre is the fold over the parameters of an injective listing of it. -/
theorem fold_fibre {α : Type} (op : α → α → α) [Std.Commutative op] [Std.Associative op] (b : α) (drop : ι → τ) (j : τ)
    [DecidablePred fun i => drop i = j] (e : κ → ι)
    (hinj : Function.Injective e) (hmem : ∀ k, drop (e k) = j) (hsurj : ∀ i, drop i = j → ∃ k, e k = i) (x : ι → α) :
    (univ.filter fun i => drop i = j).fold op b x = univ.fold op b (fun k => x (e k)) := by
  classical
  rw [filter_eq_image drop j e hmem hsurj, fold_image fun a _ b _ h => hinj h]
  rfl

end Fibre

section Max

variable {ι : Type}

/-- A fold of `max` from `⊥` commutes with a monotone map that fixes `⊥`. -/
theorem fold_max_map (g : EReal → EReal) (hg : Monotone g) (hb : g ⊥ = ⊥) (s : Finset ι) (f : ι → EReal) :
    s.fold max ⊥ (fun k => g (f k)) = g (s.fold max ⊥ f) := by
  classical
  induction s using Finset.induction_on with
  | empty => simp [hb]
  | insert a s ha ih => rw [fold_insert ha, fold_insert ha, ih, hg.map_max]

/-- A fold of `max` from `⊥` over pairs is the fold over the first coordinate of the folds over the second. -/
theorem fold_max_prod {α β : Type} [Fintype α] [Fintype β] (f : α × β → EReal) :
    (univ : Finset (α × β)).fold max ⊥ f = univ.fold max ⊥ fun a => univ.fold max ⊥ fun b => f (a, b) := by
  refine le_antisymm ?_ ?_
  · rw [fold_max_le]
    refine ⟨bot_le, fun p _ => ?_⟩
    rw [le_fold_max]
    refine Or.inr ⟨p.1, mem_univ _, ?_⟩
    rw [le_fold_max]
    exact Or.inr ⟨p.2, mem_univ _, le_rfl⟩
  · rw [fold_max_le]
    refine ⟨bot_le, fun a _ => ?_⟩
    rw [fold_max_le]
    refine ⟨bot_le, fun b _ => ?_⟩
    rw [le_fold_max]
    exact Or.inr ⟨(a, b), mem_univ _, le_rfl⟩

/-- An extended real that is a real number. -/
def IsReal (x : EReal) : Prop := ∃ r : ℝ, x = (r : EReal)

/-- The maximum of a nonempty finite family of real numbers is a real number. -/
theorem isReal_fold_max (s : Finset ι) (hs : s.Nonempty) (f : ι → EReal) (hf : ∀ k ∈ s, IsReal (f k)) :
    IsReal (s.fold max ⊥ f) := by
  classical
  induction hs using Finset.Nonempty.cons_induction with
  | singleton a =>
    obtain ⟨r, hr⟩ := hf a (mem_singleton_self a)
    exact ⟨r, by rw [fold_singleton, hr, max_eq_left bot_le]⟩
  | cons a s ha hs ih =>
    obtain ⟨r, hr⟩ := hf a (mem_cons_self a s)
    obtain ⟨p, hp⟩ := ih fun k hk => hf k (mem_cons.2 (Or.inr hk))
    exact ⟨max r p, by rw [fold_cons, hr, hp]; exact (EReal.coe_strictMono.monotone.map_max).symm⟩

end Max

/-- The sum of real numbers, read in the extended reals, is the sum of their readings. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

end Cert.LibFolds
-- ==== Proof.LossAlgebra.lean ====
/-
  The tiled form of the chamfer loss equals the reference form when all data are real numbers and every scale is
  nonzero.

  With real data every squared distance is a real number, every minimum is taken over a nonempty finite family of real
  numbers and so is a real number, and every sum is a finite sum of real numbers. Dividing the pixels and the bin
  centres of an image by its scale `σ` multiplies every squared distance by `1 / (σ * σ)`, a positive number, so it
  multiplies every minimum and every sum by the same number: `(β/σ - t/σ)² = (β - t)² / σ²`. What is left is to see
  that the tiled minima and sums range over the same pixels as the whole rows: pixel `n` of the row is pixel
  `n % 7680` of tile `n / 7680`, and the ten tiles are the five tiles of the first half followed by the five tiles of
  the second.
-/
import proofs.«142597_j42812234006906_2_alg».proof.Proof.Spec
import proofs.«142597_j42812234006906_2_alg».proof.Proof.LibMinFold
import proofs.«142597_j42812234006906_2_alg».proof.Proof.LibFolds

noncomputable section

namespace Cert.Chamfer

open Finset Idealize.ShloMosaic

/-! ### Minima of finite families of real numbers -/

section RealMin

variable {ι : Type*} [Fintype ι] [Nonempty ι]

/-- The minimum from `⊤` of a nonempty finite family of real numbers is the real number `inf'` of the family. -/
theorem fold_min_coe (f : ι → ℝ) :
    univ.fold min (⊤ : EReal) (fun i => ((f i : ℝ) : EReal)) = ((univ.inf' univ_nonempty f : ℝ) : EReal) := by
  apply le_antisymm
  · obtain ⟨i, -, hi⟩ := exists_mem_eq_inf' (univ_nonempty (α := ι)) f
    rw [hi]
    exact Cert.MinFold.fold_le_apply ⊤ (fun i => ((f i : ℝ) : EReal)) i
  · refine Cert.MinFold.le_fold le_top fun i => ?_
    exact EReal.coe_le_coe_iff.2 (inf'_le f (mem_univ i))

/-- Multiplying every member by a nonnegative number multiplies the minimum by it. -/
theorem inf'_mul_left (c : ℝ) (hc : 0 ≤ c) (f : ι → ℝ) :
    univ.inf' univ_nonempty (fun i => c * f i) = c * univ.inf' univ_nonempty f := by
  apply le_antisymm
  · obtain ⟨i, -, hi⟩ := exists_mem_eq_inf' (univ_nonempty (α := ι)) f
    rw [hi]
    exact inf'_le (fun i => c * f i) (mem_univ i)
  · exact le_inf' _ _ fun i _ => mul_le_mul_of_nonneg_left (inf'_le f (mem_univ i)) hc

end RealMin

/-! ### Ten tiles in two halves -/

section Halves

variable {α : Type*} [LinearOrder α]

/-- A running minimum over the five tiles of each half, the two halves joined by a minimum, is the minimum over the
    ten tiles. Every fold and the running minimum start from `b`. -/
theorem fold_two_halves (b : α) (a : ℕ → α) :
    univ.fold min b (fun c : Fin 2 =>
        min (min (min (min (min b (a (5 * c.val))) (a (5 * c.val + 1))) (a (5 * c.val + 2))) (a (5 * c.val + 3)))
          (a (5 * c.val + 4)))
      = univ.fold min b (fun t : Fin 10 => a t.val) := by
  have hb := Cert.MinFold.fold_le_init b (fun t : Fin 10 => a t.val)
  have ht := Cert.MinFold.fold_le_apply b (fun t : Fin 10 => a t.val)
  apply le_antisymm
  · refine Cert.MinFold.le_fold (Cert.MinFold.fold_le_init b _) fun t => ?_
    have h0 := Cert.MinFold.fold_le_apply b (fun c : Fin 2 =>
        min (min (min (min (min b (a (5 * c.val))) (a (5 * c.val + 1))) (a (5 * c.val + 2))) (a (5 * c.val + 3)))
          (a (5 * c.val + 4))) 0
    have h1 := Cert.MinFold.fold_le_apply b (fun c : Fin 2 =>
        min (min (min (min (min b (a (5 * c.val))) (a (5 * c.val + 1))) (a (5 * c.val + 2))) (a (5 * c.val + 3)))
          (a (5 * c.val + 4))) 1
    fin_cases t
    · exact h0.trans (by simp [min_le_iff])
    · exact h0.trans (by simp [min_le_iff])
    · exact h0.trans (by simp [min_le_iff])
    · exact h0.trans (by simp [min_le_iff])
    · exact h0.trans (by simp [min_le_iff])
    · exact h1.trans (by simp [min_le_iff])
    · exact h1.trans (by simp [min_le_iff])
    · exact h1.trans (by simp [min_le_iff])
    · exact h1.trans (by simp [min_le_iff])
    · exact h1.trans (by simp [min_le_iff])
  · refine Cert.MinFold.le_fold hb fun c => ?_
    fin_cases c
    · exact le_min (le_min (le_min (le_min (le_min hb (ht 0)) (ht 1)) (ht 2)) (ht 3)) (ht 4)
    · exact le_min (le_min (le_min (le_min (le_min hb (ht 5)) (ht 6)) (ht 7)) (ht 8)) (ht 9)

end Halves

section HalvesSum

variable {M : Type*} [AddCommMonoid M]

/-- A running sum over the five tiles of each half, the two halves added, is the sum over the ten tiles. -/
theorem sum_two_halves (a : ℕ → M) :
    ∑ c : Fin 2, (0 + a (5 * c.val) + a (5 * c.val + 1) + a (5 * c.val + 2) + a (5 * c.val + 3) + a (5 * c.val + 4))
      = ∑ t : Fin 10, a t.val := by
  rw [Fin.sum_univ_eq_sum_range (fun t => a t) 10, Fin.sum_univ_two]
  simp only [sum_range_succ, sum_range_zero, Fin.val_zero, Fin.val_one, zero_add, add_assoc]

/-- A sum over `p * q` consecutive numbers, cut into `p` tiles of `q`. -/
theorem sum_tiles (p q : ℕ) (r : ℕ → M) :
    ∑ n : Fin (p * q), r n.val = ∑ t : Fin p, ∑ n : Fin q, r (t.val * q + n.val) := by
  rw [← (Equiv.sum_comp finProdFinEquiv (fun n : Fin (p * q) => r n.val)), Fintype.sum_prod_type]
  refine sum_congr rfl fun t _ => sum_congr rfl fun n _ => ?_
  simp only [finProdFinEquiv_apply_val]
  congr 1
  ring

end HalvesSum

/-! ### The squared distance and division on real numbers -/

theorem sq_coe (x y : ℝ) : sq (x : EReal) (y : EReal) = (((x - y) * (x - y) : ℝ) : EReal) := by
  rw [sq, ← EReal.coe_sub, ← EReal.coe_mul]

theorem div_coe_coe (x y : ℝ) (hy : y ≠ 0) : Ideal.div (x : EReal) (y : EReal) = ((x / y : ℝ) : EReal) := by
  rw [Ideal.div_coe hy, ← EReal.coe_mul, mul_one_div]

/-- Dividing both points by `s` divides the squared distance by `s * s`. -/
theorem sq_div_coe (x y s : ℝ) (hs : s ≠ 0) :
    sq (Ideal.div (x : EReal) (s : EReal)) (Ideal.div (y : EReal) (s : EReal))
      = ((1 / (s * s) * ((x - y) * (x - y)) : ℝ) : EReal) := by
  rw [div_coe_coe x s hs, div_coe_coe y s hs, sq_coe]
  congr 1
  field_simp

/-! ### The running minimum and the running sum at the end of a half -/

section Running

variable (β : Fin 4 → Fin 256 → EReal) (X : ℕ → Fin 4 → Fin 7680 → EReal)

theorem accMin_half (c : Fin 2) (b : Fin 4) (m : Fin 256) :
    accMin β X (5 * c.val + 4) b m
      = min (min (min (min (min ⊤ (tileMin β (X (5 * c.val)) b m)) (tileMin β (X (5 * c.val + 1)) b m))
          (tileMin β (X (5 * c.val + 2)) b m)) (tileMin β (X (5 * c.val + 3)) b m)) (tileMin β (X (5 * c.val + 4)) b m) := by
  fin_cases c
  · rfl
  · rfl

theorem accSum_half (c : Fin 2) (b : Fin 4) :
    accSum β X (5 * c.val + 4) b
      = 0 + tileSum β (X (5 * c.val)) b + tileSum β (X (5 * c.val + 1)) b + tileSum β (X (5 * c.val + 2)) b
          + tileSum β (X (5 * c.val + 3)) b + tileSum β (X (5 * c.val + 4)) b := by
  fin_cases c
  · rfl
  · rfl

/-- The two halves' running minima joined: the minimum over the ten tiles. -/
theorem fold_accMin (b : Fin 4) (m : Fin 256) :
    univ.fold min ⊤ (fun c : Fin 2 => accMin β X (5 * c.val + 4) b m)
      = univ.fold min ⊤ (fun t : Fin 10 => tileMin β (X t.val) b m) := by
  simp only [accMin_half]
  exact fold_two_halves ⊤ fun t => tileMin β (X t) b m

/-- The two halves' running sums added: the sum over the ten tiles. -/
theorem sum_accSum (b : Fin 4) :
    ∑ c : Fin 2, accSum β X (5 * c.val + 4) b = ∑ t : Fin 10, tileSum β (X t.val) b := by
  simp only [accSum_half]
  exact sum_two_halves fun t => tileSum β (X t) b

end Running

/-! ### Real data: every minimum and every sum is a real number -/

section RealData

variable (β : Fin 4 → Fin 256 → ℝ) (T : Fin 4 → Fin 76800 → ℝ)

/-- The squared distance from bin centre `m` to pixel `n` of image `b`. -/
def sqDist (b : Fin 4) (m : Fin 256) (n : Fin 76800) : ℝ := (β b m - T b n) * (β b m - T b n)

/-- The squared distance from bin centre `m` to its nearest pixel. -/
def colMin (b : Fin 4) (m : Fin 256) : ℝ := univ.inf' univ_nonempty fun n => sqDist β T b m n

/-- The squared distance from pixel `n` to its nearest bin centre. -/
def rowMin (b : Fin 4) (n : Fin 76800) : ℝ := univ.inf' univ_nonempty fun m => sqDist β T b m n

/-- `rowMin` read at a natural number (zero past the end of the row). -/
def rowMinN (b : Fin 4) (k : ℕ) : ℝ := if h : k < 76800 then rowMin β T b ⟨k, h⟩ else 0

theorem rowMinN_val (b : Fin 4) (n : Fin 76800) : rowMinN β T b n.val = rowMin β T b n := dif_pos n.isLt

/-- The row of 76800 pixels is ten tiles of 7680. -/
theorem sum_row_tiles {M : Type*} [AddCommMonoid M] (r : ℕ → M) :
    ∑ n : Fin 76800, r n.val = ∑ t : Fin 10, ∑ n : Fin 7680, r (t.val * 7680 + n.val) :=
  sum_tiles 10 7680 r

section Kernel

variable (X : ℕ → Fin 4 → Fin 7680 → EReal)
  (hX : ∀ (t : ℕ) (ht : t < 10) (b : Fin 4) (n : Fin 7680),
    X t b n = ((T b ⟨t * 7680 + n.val, by omega⟩ : ℝ) : EReal))

include hX

theorem tileMin_coe (t : Fin 10) (b : Fin 4) (m : Fin 256) :
    tileMin (fun b m => ((β b m : ℝ) : EReal)) (X t.val) b m
      = univ.fold min ⊤ (fun n : Fin 7680 => ((sqDist β T b m ⟨t.val * 7680 + n.val, by omega⟩ : ℝ) : EReal)) := by
  unfold tileMin
  congr 1
  funext n
  rw [hX t.val t.isLt b n, sq_coe]
  rfl

theorem kernel_colMin (b : Fin 4) (m : Fin 256) :
    univ.fold min ⊤ (fun c : Fin 2 => accMin (fun b m => ((β b m : ℝ) : EReal)) X (5 * c.val + 4) b m)
      = ((colMin β T b m : ℝ) : EReal) := by
  rw [fold_accMin]
  simp only [tileMin_coe β T X hX]
  rw [colMin, ← fold_min_coe]
  refine Cert.MinFold.fold_rows ⊤ _ (fun n : Fin 76800 => ((sqDist β T b m n : ℝ) : EReal)) (fun n => ?_) (fun t n => ?_)
  · exact ⟨⟨n.val / 7680, by omega⟩, ⟨n.val % 7680, by omega⟩,
      congrArg (fun k => ((sqDist β T b m k : ℝ) : EReal)) (Fin.ext (Nat.div_add_mod' n.val 7680))⟩
  · exact ⟨⟨t.val * 7680 + n.val, by omega⟩, rfl⟩

theorem kernel_A (b : Fin 4) :
    ∑ m : Fin 256, univ.fold min ⊤ (fun c : Fin 2 => accMin (fun b m => ((β b m : ℝ) : EReal)) X (5 * c.val + 4) b m)
      = ((∑ m : Fin 256, colMin β T b m : ℝ) : EReal) := by
  rw [Cert.LibFolds.coe_sum]
  exact sum_congr rfl fun m _ => kernel_colMin β T X hX b m

theorem tileSum_coe (t : Fin 10) (b : Fin 4) :
    tileSum (fun b m => ((β b m : ℝ) : EReal)) (X t.val) b
      = ∑ n : Fin 7680, ((rowMinN β T b (t.val * 7680 + n.val) : ℝ) : EReal) := by
  unfold tileSum
  refine sum_congr rfl fun n _ => ?_
  have hk : t.val * 7680 + n.val < 76800 := by omega
  rw [rowMinN, dif_pos hk, rowMin, ← fold_min_coe]
  congr 1
  funext m
  rw [hX t.val t.isLt b n, sq_coe]
  rfl

theorem kernel_B (b : Fin 4) :
    ∑ c : Fin 2, accSum (fun b m => ((β b m : ℝ) : EReal)) X (5 * c.val + 4) b
      = ((∑ n : Fin 76800, rowMin β T b n : ℝ) : EReal) := by
  rw [sum_accSum]
  simp only [tileSum_coe β T X hX]
  rw [← sum_row_tiles fun k => ((rowMinN β T b k : ℝ) : EReal), Cert.LibFolds.coe_sum]
  exact sum_congr rfl fun n _ => congrArg (fun x : ℝ => (x : EReal)) (rowMinN_val β T b n)

end Kernel

section Reference

variable (σ : Fin 4 → ℝ) (hσ : ∀ b, σ b ≠ 0)

include hσ

theorem ref_colMin (b : Fin 4) (m : Fin 256) :
    univ.fold min ⊤ (fun n : Fin 76800 =>
        sq (Ideal.div ((β b m : ℝ) : EReal) ((σ b : ℝ) : EReal)) (Ideal.div ((T b n : ℝ) : EReal) ((σ b : ℝ) : EReal)))
      = ((1 / (σ b * σ b) * colMin β T b m : ℝ) : EReal) := by
  simp only [sq_div_coe _ _ _ (hσ b)]
  rw [colMin, ← inf'_mul_left _ (one_div_nonneg.2 (mul_self_nonneg (σ b))), ← fold_min_coe]
  rfl

theorem ref_rowMin (b : Fin 4) (n : Fin 76800) :
    univ.fold min ⊤ (fun m : Fin 256 =>
        sq (Ideal.div ((β b m : ℝ) : EReal) ((σ b : ℝ) : EReal)) (Ideal.div ((T b n : ℝ) : EReal) ((σ b : ℝ) : EReal)))
      = ((1 / (σ b * σ b) * rowMin β T b n : ℝ) : EReal) := by
  simp only [sq_div_coe _ _ _ (hσ b)]
  rw [rowMin, ← inf'_mul_left _ (one_div_nonneg.2 (mul_self_nonneg (σ b))), ← fold_min_coe]
  rfl

theorem ref_A (b : Fin 4) :
    ∑ m : Fin 256, univ.fold min ⊤ (fun n : Fin 76800 =>
        sq (Ideal.div ((β b m : ℝ) : EReal) ((σ b : ℝ) : EReal)) (Ideal.div ((T b n : ℝ) : EReal) ((σ b : ℝ) : EReal)))
      = ((1 / (σ b * σ b) * ∑ m : Fin 256, colMin β T b m : ℝ) : EReal) := by
  rw [mul_sum, Cert.LibFolds.coe_sum]
  exact sum_congr rfl fun m _ => ref_colMin β T σ hσ b m

theorem ref_B (b : Fin 4) :
    ∑ n : Fin 76800, univ.fold min ⊤ (fun m : Fin 256 =>
        sq (Ideal.div ((β b m : ℝ) : EReal) ((σ b : ℝ) : EReal)) (Ideal.div ((T b n : ℝ) : EReal) ((σ b : ℝ) : EReal)))
      = ((1 / (σ b * σ b) * ∑ n : Fin 76800, rowMin β T b n : ℝ) : EReal) := by
  rw [mul_sum, Cert.LibFolds.coe_sum]
  exact sum_congr rfl fun n _ => ref_rowMin β T σ hσ b n

end Reference

end RealData

/-! ### One image's term, and the loss -/

/-- Dividing the image's total by `s * s` at the end, or scaling both means by `1 / (s * s)` first. -/
theorem term_eq (A B s k256 k76800 : ℝ) (hs : s ≠ 0) (h256 : k256 ≠ 0) (h76800 : k76800 ≠ 0) :
    Ideal.div (Ideal.div (A : EReal) (k256 : EReal) + Ideal.div (B : EReal) (k76800 : EReal)) ((s : EReal) * (s : EReal))
      = Ideal.div ((1 / (s * s) * A : ℝ) : EReal) (k256 : EReal)
          + Ideal.div ((1 / (s * s) * B : ℝ) : EReal) (k76800 : EReal) := by
  rw [← EReal.coe_mul, div_coe_coe A k256 h256, div_coe_coe B k76800 h76800, ← EReal.coe_add,
    div_coe_coe _ _ (mul_ne_zero hs hs), div_coe_coe _ _ h256, div_coe_coe _ _ h76800, ← EReal.coe_add]
  congr 1
  field_simp

theorem kernelLoss_eq_refLoss (β : Fin 4 → Fin 256 → ℝ) (T : Fin 4 → Fin 76800 → ℝ) (σ : Fin 4 → ℝ) (hσ : ∀ b, σ b ≠ 0)
    (k256 k76800 k4 k10 : ℝ) (h256 : k256 ≠ 0) (h76800 : k76800 ≠ 0) (h4 : k4 ≠ 0)
    (X : ℕ → Fin 4 → Fin 7680 → EReal)
    (hX : ∀ (t : ℕ) (ht : t < 10) (b : Fin 4) (n : Fin 7680), X t b n = ((T b ⟨t * 7680 + n.val, by omega⟩ : ℝ) : EReal)) :
    kernelLoss (fun b m => ((β b m : ℝ) : EReal)) X (fun b => ((σ b : ℝ) : EReal)) (k256 : EReal) (k76800 : EReal) (k4 : EReal) (k10 : EReal)
      = refLoss (fun b m => ((β b m : ℝ) : EReal)) (fun b n => ((T b n : ℝ) : EReal)) (fun b => ((σ b : ℝ) : EReal)) (k256 : EReal) (k76800 : EReal) (k4 : EReal) (k10 : EReal) := by
  unfold kernelLoss refLoss
  refine congrArg (fun s => Ideal.div s (k4 : EReal) * (k10 : EReal)) (sum_congr rfl fun b _ => ?_)
  rw [kernel_A β T X hX b, kernel_B β T X hX b, ref_A β T σ hσ b, ref_B β T σ hσ b]
  exact term_eq _ _ (σ b) k256 k76800 (hσ b) h256 h76800

end Cert.Chamfer

end
-- ==== Proof.Arrays.lean ====
/-
  The two argument arrays as tables: the pixels of image `b` in row-major order over the 240 × 320 grid, the image's
  scale (its largest pixel, a maximum taken from `⊥`), and the bin centres by image and number.
-/
import Idealize.ShloMosaic.Lib.ValueIdx
import Idealize.ShloMosaic.PureOps.Ideal

noncomputable section

namespace Cert.Chamfer

open Finset Idealize.ShloMosaic Idealize.ShloMosaic.ValueIdx

/-- The shape of the pixel array: four images of one channel, 240 rows of 320 pixels. -/
abbrev SImg : Shape := ⟨4, ![4, 1, 240, 320]⟩
/-- The shape of the bin-centre array. -/
abbrev SBins : Shape := ⟨2, ![4, 256]⟩

/-- Pixel `n` of image `b`, the pixels counted row by row: row `n / 320`, column `n % 320`. -/
def flat (a0 : SImg.Idx → EReal) (b : Fin 4) (n : Fin 76800) : EReal :=
  a0 (ix4 b (0 : Fin 1) (⟨n.val / 320, by have := n.isLt; omega⟩ : Fin 240) (⟨n.val % 320, by have := n.isLt; omega⟩ : Fin 320))

/-- The largest pixel of image `b`: the maximum, from `⊥`, over the indices whose first coordinate is `b`. -/
def scale (a0 : SImg.Idx → EReal) (b : Fin 4) : EReal :=
  (univ.filter fun i : SImg.Idx => (i 0).val = b.val).fold max ⊥ a0

/-- Bin centre `m` of image `b`. -/
def bins (a1 : SBins.Idx → EReal) (b : Fin 4) (m : Fin 256) : EReal := a1 (ix2 b m)

end Cert.Chamfer

end
-- ==== Proof.LibFiniteEntry.lean ====
/-
  General facts about the printed test "every entry of a float array has absolute value below +∞", read at the ideal
  values, where a float is an extended real.

  * The f32 pattern 0x7F800000 denotes +∞.
  * An extended real whose absolute value max(x, -x) is below +∞ is neither infinity, hence a real number.
  * A strict comparison of extended reals that came out true is the strict inequality.
  * So one entry of the printed test `|a| < +∞` (the array's absolute value compared, entry by entry, with the
    broadcast +∞ pattern) that came out true says that entry of `a` is a real number — at any shape.
-/
import Idealize.ShloMosaic.PureOps.Ideal.Laws
import Idealize.ShloMosaic.Lib.ValueIdx

noncomputable section

namespace Cert.LibFiniteEntry

open Idealize.ShloMosaic

/-- The f32 pattern of +∞ denotes +∞. -/
theorem ofBits_inf_f32 : Ideal.ofBits .f32 0x7F800000#32 = ⊤ := by
  simp [Ideal.ofBits, Ideal.ieee]

/-- An extended real whose absolute value is below +∞ is a real. -/
theorem real_of_abs_lt_top (x : EReal) (h : max x (-x) < ⊤) : ∃ r : ℝ, x = (r : EReal) := by
  have hb : x ≠ ⊥ := by
    rintro rfl
    rw [EReal.neg_bot, max_eq_right bot_le] at h
    exact lt_irrefl _ h
  have ht : x ≠ ⊤ := by
    rintro rfl
    rw [EReal.neg_top, max_eq_left bot_le] at h
    exact lt_irrefl _ h
  exact ⟨x.toReal, (EReal.coe_toReal ht hb).symm⟩

/-- A strict comparison of extended reals that came out true. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- One entry of the printed test `|a| < +∞` that came out true: that entry of `a` is a real. -/
theorem real_of_finite_test {s : Shape} (a : FVec Ideal s .f32) (hb : (⟨0, ![]⟩ : Shape).BroadcastsInDim s ![]) (j : s.Idx)
    (h : cmpf .olt (Host.absf a) (broadcastInDim s ![] hb (constant (F := Ideal) ⟨0, ![]⟩ .f32 0x7F800000#32)) j = 1#1) :
    ∃ r : ℝ, a j = (r : EReal) := by
  have hlt : max (a j) (-(a j)) < Ideal.ofBits .f32 0x7F800000#32 := lt_of_cmp_olt h
  rw [ofBits_inf_f32] at hlt
  exact real_of_abs_lt_top _ hlt

end Cert.LibFiniteEntry

end
-- ==== Proof.ArrayFacts.lean ====
/-
  Small facts about the two argument arrays at the ideal values, where every float is an extended real.

  * The reshape [4,1,240,320] → [4,76800] lists the pixels of an image row by row.
  * A maximum over the two pixel axes (kept as [4,1]), or over the channel axis and the two pixel axes (kept as [4]),
    taken from -∞, is the image's scale: the channel axis has a single coordinate, so both read the same set of
    pixels, those whose first coordinate is the image's number.
  * The f32 patterns of -∞, 256, 76800, 4 and 10 denote those numbers.
  * Of real pixels the scale is a real number.
  * The precondition (every pixel and every bin centre has absolute value below +∞, and no image's largest pixel is
    zero) says that every pixel and every bin centre is a real number and that no scale is zero.
-/
import proofs.«142597_j42812234006906_2_alg».proof.Proof.Arrays
import proofs.«142597_j42812234006906_2_alg».proof.Pre_finite_inputs
import proofs.«142597_j42812234006906_2_alg».proof.Proof.LibFiniteEntry
import proofs.«142597_j42812234006906_2_alg».proof.Proof.LibFolds
import Idealize.ShloMosaic.Lib.ReduceAll
import Idealize.ShloMosaic.Lib.ValueIdx
import Idealize.ShloMosaic.Lib.Pipeline.Value
import Idealize.ShloMosaic.PureOps.Reduce
import Idealize.ShloMosaic.PureOps.Ideal.Laws

noncomputable section

namespace Cert.Chamfer

open Finset Idealize.ShloMosaic Idealize.ShloMosaic.ValueIdx

/-- The reshape [4,1,240,320] → [4,76800] lists image b's pixels row by row. -/
theorem flat_eq (a0 : SImg.Idx → EReal) (h : SImg.ShapeCasts (⟨2, ![4, 76800]⟩ : Shape)) (b : Fin 4) (n : Fin 76800) :
    shapeCast (⟨2, ![4, 76800]⟩ : Shape) a0 h (ix2 b n) = flat a0 b n := by
  unfold flat
  refine shapeCast_apply a0 h (ix2 b n) _ ?_
  rewrite [Shape.rowMajor_val_four, Shape.rowMajor_val_two]
  have hn : n.val < 76800 := n.isLt
  show ((b.val * 1 + 0) * 240 + n.val / 320) * 320 + n.val % 320 = b.val * 76800 + n.val
  omega

/-- The indices that a reduction over the two pixel axes sends to (b, 0) are those whose first coordinate is b. -/
theorem drop23_iff (h : SImg.ReducesTo [2, 3] (⟨2, ![4, 1]⟩ : Shape)) (b : Fin 4) (i : SImg.Idx) :
    h.drop i = ix2 b 0 ↔ (i 0).val = b.val := by
  constructor
  · intro hi
    have h0 : (h.drop i 0 : Nat) = i 0 := h.drop_apply_val_of_eq i 0 0
    rw [hi] at h0
    exact h0.symm
  · intro hi
    funext d
    match d with
    | ⟨0, _⟩ => exact Fin.ext ((h.drop_apply_val_of_eq i 0 0).trans hi)
    | ⟨1, _⟩ =>
      have h1 : (h.drop i 1).val < 1 := (h.drop i 1).isLt
      exact Fin.ext (by show (h.drop i 1).val = 0; omega)

/-- The indices that a reduction over the channel and the two pixel axes sends to b are those whose first coordinate is b. -/
theorem drop123_iff (h : SImg.ReducesTo [1, 2, 3] (⟨1, ![4]⟩ : Shape)) (b : Fin 4) (i : SImg.Idx) :
    h.drop i = ix1 b ↔ (i 0).val = b.val := by
  constructor
  · intro hi
    have h0 : (h.drop i 0 : Nat) = i 0 := h.drop_apply_val_of_eq i 0 0
    rw [hi] at h0
    exact h0.symm
  · intro hi
    funext d
    match d with
    | ⟨0, _⟩ => exact Fin.ext ((h.drop_apply_val_of_eq i 0 0).trans hi)

/-- The reduce-max over the two pixel axes, kept as [4,1], at (b, 0) is the image's scale. -/
theorem scale_of_reduce23 (a0 : SImg.Idx → EReal) (init : (⟨0, ![]⟩ : Shape).Idx → EReal) (hinit : init ix0 = ⊥)
    (h : SImg.ReducesTo [2, 3] (⟨2, ![4, 1]⟩ : Shape)) (hu : 0 < (⟨0, ![]⟩ : Shape).numel) (b : Fin 4) :
    Host.reduce (FloatOps.maximumf (F := Ideal) (φ := .f32)) a0 init h hu (ix2 b 0) = scale a0 b := by
  rw [Host.reduce_eq_fold, eq_ix0 (Shape.Idx.first hu), hinit,
    Finset.filter_congr (fun i _ => drop23_iff h b i)]
  rfl

/-- The reduce-max over the channel and the two pixel axes at b is the same scale (the channel axis has one entry). -/
theorem scale_of_reduce123 (a0 : SImg.Idx → EReal) (init : (⟨0, ![]⟩ : Shape).Idx → EReal) (hinit : init ix0 = ⊥)
    (h : SImg.ReducesTo [1, 2, 3] (⟨1, ![4]⟩ : Shape)) (hu : 0 < (⟨0, ![]⟩ : Shape).numel) (b : Fin 4) :
    Host.reduce (FloatOps.maximumf (F := Ideal) (φ := .f32)) a0 init h hu (ix1 b) = scale a0 b := by
  rw [Host.reduce_eq_fold, eq_ix0 (Shape.Idx.first hu), hinit,
    Finset.filter_congr (fun i _ => drop123_iff h b i)]
  rfl

/-- The f32 pattern of -∞ denotes ⊥. -/
theorem ofBits_neg_inf : Ideal.ofBits .f32 0xFF800000#32 = ⊥ := by
  simp [Ideal.ofBits, Ideal.ieee]

/-- The scalar constant -∞ reads ⊥. -/
theorem const_neg_inf : constant (F := Ideal) (⟨0, ![]⟩ : Shape) .f32 0xFF800000#32 ix0 = ⊥ :=
  ofBits_neg_inf

/-- Of real pixels the scale is a real. -/
theorem scale_real (a0 : SImg.Idx → EReal) (hfin : ∀ i, ∃ r : ℝ, a0 i = (r : EReal)) (b : Fin 4) :
    ∃ r : ℝ, scale a0 b = (r : EReal) := by
  unfold scale
  exact Cert.LibFolds.isReal_fold_max (univ.filter fun i : SImg.Idx => (i 0).val = b.val)
    ⟨ix4 b (0 : Fin 1) (0 : Fin 240) (0 : Fin 320), mem_filter.2 ⟨mem_univ _, rfl⟩⟩ a0 (fun k _ => hfin k)

/-- The f32 pattern of 256. -/
theorem ofBits_256 : Ideal.ofBits .f32 0x43800000#32 = ((256 : ℝ) : EReal) := by
  simp [Ideal.ofBits, Ideal.ieee, -EReal.coe_mul]; norm_num

/-- The f32 pattern of 76800. -/
theorem ofBits_76800 : Ideal.ofBits .f32 0x47960000#32 = ((76800 : ℝ) : EReal) := by
  simp [Ideal.ofBits, Ideal.ieee, -EReal.coe_mul]; norm_num

/-- The f32 pattern of 4. -/
theorem ofBits_4 : Ideal.ofBits .f32 0x40800000#32 = ((4 : ℝ) : EReal) := by
  simp [Ideal.ofBits, Ideal.ieee, -EReal.coe_mul]; norm_num

/-- The f32 pattern of 10. -/
theorem ofBits_10 : Ideal.ofBits .f32 0x41200000#32 = ((10 : ℝ) : EReal) := by
  simp [Ideal.ofBits, Ideal.ieee, -EReal.coe_mul]; norm_num

/-- A comparison "not equal" of extended reals that came out true. -/
theorem ne_of_cmp_une {x y : EReal} (h : Ideal.cmp .une x y = 1#1) : x ≠ y := by
  intro hxy
  have h0 : Ideal.cmp .une x y = 0#1 := by simp [Ideal.cmp, hxy]
  rw [h0] at h
  exact absurd h (by decide)

/-- One entry of the elementwise test "not equal" that came out true: the two entries differ. -/
theorem ne_of_une_test {s : Shape} (x y : FVec Ideal s .f32) (j : s.Idx) (h : cmpf .une x y j = 1#1) : x j ≠ y j :=
  ne_of_cmp_une h

/-- The broadcast of a scalar reads the scalar at every index. -/
theorem bcast_scalar_apply {s : Shape} (hb : (⟨0, ![]⟩ : Shape).BroadcastsInDim s ![]) (c : (⟨0, ![]⟩ : Shape).Idx → EReal) (j : s.Idx) :
    broadcastInDim s ![] hb c j = c ix0 :=
  broadcastInDim_apply _ hb c j ix0 (fun a => a.elim0)

/-- What the precondition says: every pixel and every bin centre is a real, and no image's scale is zero. -/
theorem pre_facts [Cert.Pre_finite_inputs.Facts] (a0 : SImg.Idx → EReal) (a1 : SBins.Idx → EReal)
    (hpre : Cert.Pre_finite_inputs.fn (F := Ideal) a0 a1 = fun _ => 1#1) :
    (∀ i, ∃ r : ℝ, a0 i = (r : EReal)) ∧ (∀ i, ∃ r : ℝ, a1 i = (r : EReal)) ∧ (∀ b : Fin 4, scale a0 b ≠ 0) := by
  haveI : Subsingleton (⟨0, ![]⟩ : Shape).Idx := ⟨fun a b => funext fun d => d.elim0⟩
  have h := congrFun hpre ix0
  dsimp only [Cert.Pre_finite_inputs.fn] at h
  obtain ⟨h8, h12⟩ := IntOp.andi_eq_one.1 h
  obtain ⟨h3, h7⟩ := IntOp.andi_eq_one.1 h8
  refine ⟨fun i => ?_, fun i => ?_, fun b => ?_⟩
  · exact Cert.LibFiniteEntry.real_of_finite_test a0 _ i (Host.reduce_andi_all _ _ _ _ _ h3 i)
  · exact Cert.LibFiniteEntry.real_of_finite_test a1 _ i (Host.reduce_andi_all _ _ _ _ _ h7 i)
  · have hj := Host.reduce_andi_all _ _ _ _ _ h12 (ix2 b 0)
    have hne := ne_of_une_test _ _ _ hj
    rw [scale_of_reduce23 a0 _ const_neg_inf, bcast_scalar_apply, constant_apply, Ideal.ofBits_zero_f32] at hne
    exact hne

end Cert.Chamfer

end
-- ==== Proof.LossBridge.lean ====
/-
  The loss identity for argument arrays whose entries are all real numbers.

  When every pixel and every bin centre is a real number, the tables of pixels and of bin centres are tables of real
  numbers, and each image's scale, the largest of its pixels, is a real number too. The four constants of the loss are
  the real numbers 256, 76800, 4 and 10, none of them zero. With no scale equal to zero, the tiled form of the loss
  and the reference form then agree by the identity for real data.
-/
import proofs.«142597_j42812234006906_2_alg».proof.Proof.LossAlgebra
import proofs.«142597_j42812234006906_2_alg».proof.Proof.Arrays
import proofs.«142597_j42812234006906_2_alg».proof.Proof.ArrayFacts

noncomputable section

namespace Cert.Chamfer

open Finset Idealize.ShloMosaic Idealize.ShloMosaic.ValueIdx

theorem kernelLoss_eq_refLoss_of_pre (a0 : SImg.Idx → EReal) (a1 : SBins.Idx → EReal)
    (hfin0 : ∀ i, ∃ r : ℝ, a0 i = (r : EReal)) (hfin1 : ∀ i, ∃ r : ℝ, a1 i = (r : EReal)) (hσ : ∀ b : Fin 4, scale a0 b ≠ 0)
    (X : ℕ → Fin 4 → Fin 7680 → EReal)
    (hX : ∀ (t : ℕ) (ht : t < 10) (b : Fin 4) (n : Fin 7680), X t b n = flat a0 b ⟨t * 7680 + n.val, by omega⟩) :
    kernelLoss (bins a1) X (scale a0) (Ideal.ofBits .f32 0x43800000#32) (Ideal.ofBits .f32 0x47960000#32) (Ideal.ofBits .f32 0x40800000#32) (Ideal.ofBits .f32 0x41200000#32)
      = refLoss (bins a1) (flat a0) (scale a0) (Ideal.ofBits .f32 0x43800000#32) (Ideal.ofBits .f32 0x47960000#32) (Ideal.ofBits .f32 0x40800000#32) (Ideal.ofBits .f32 0x41200000#32) := by
  -- the tables of bin centres, of pixels and of scales are tables of real numbers
  have hβ : ∀ (b : Fin 4) (m : Fin 256), ∃ r : ℝ, bins a1 b m = (r : EReal) := fun b m => hfin1 _
  have hT : ∀ (b : Fin 4) (n : Fin 76800), ∃ r : ℝ, flat a0 b n = (r : EReal) := fun b n => hfin0 _
  choose β hβ using hβ
  choose T hT using hT
  choose σ hσr using scale_real a0 hfin0
  have hβ' : bins a1 = fun b m => ((β b m : ℝ) : EReal) := funext fun b => funext fun m => hβ b m
  have hT' : flat a0 = fun b n => ((T b n : ℝ) : EReal) := funext fun b => funext fun n => hT b n
  have hσ' : scale a0 = fun b => ((σ b : ℝ) : EReal) := funext hσr
  have hσ0 : ∀ b, σ b ≠ 0 := fun b h => hσ b (by rw [hσr b, h, EReal.coe_zero])
  rw [ofBits_256, ofBits_76800, ofBits_4, ofBits_10, hβ', hT', hσ']
  exact kernelLoss_eq_refLoss β T σ hσ0 256 76800 4 10 (by norm_num) (by norm_num) (by norm_num) X
    fun t ht b n => (hX t ht b n).trans (hT b _)

end Cert.Chamfer

end
-- ==== Proof.Claims.lean ====
/-
  The two idealized programs compute one loss.

  The kernel program ends at the tiled chamfer loss `kernelLoss` of the raw bin centres and pixel tiles, divided per image
  by the square of the image's scale at the very end; the reference ends at `refLoss`, the same loss of the bin centres and
  pixels each divided by the image's scale first. Under the precondition — every pixel and bin centre a real number, no
  image's scale zero — the two agree: (β/σ − t/σ)² = (β − t)²/σ², a minimum and a sum commute with the positive factor
  1/σ², a minimum over a row of pixels is the minimum over its ten tiles, and a sum over the row the sum over the tiles.
-/
import proofs.«142597_j42812234006906_2_alg».proof.Defs
import proofs.«142597_j42812234006906_2_alg».proof.Proof.Gen.Kernel.Frame
import proofs.«142597_j42812234006906_2_alg».proof.Proof.Gen.Pre_finite_inputs
import proofs.«142597_j42812234006906_2_alg».proof.Proof.KernelRun
import proofs.«142597_j42812234006906_2_alg».proof.Proof.RefValue
import proofs.«142597_j42812234006906_2_alg».proof.Proof.LossBridge

set_option maxRecDepth 16384

noncomputable section

open Idealize.ShloMosaic Idealize.ShloMosaic.TcCoe Idealize.SL.Sem Idealize.ShloMosaic.ValueIdx

namespace Cert.Proof.Chamfer

open Cert.Chamfer

/-- The reference's scalar, in the tables of its two arguments. -/
theorem ref_loss (a0 : FVec Ideal Cert.ReferenceIdeal.S4x1x240x320 .f32) (a1 : FVec Ideal Cert.ReferenceIdeal.S4x256 .f32) :
    Cert.ReferenceIdeal.Read.val_main_v25 (F := Ideal) a0 a1 = fun _ =>
      refLoss (bins a1) (flat a0) (scale a0)
        (Ideal.ofBits .f32 0x43800000#32) (Ideal.ofBits .f32 0x47960000#32) (Ideal.ofBits .f32 0x40800000#32) (Ideal.ofBits .f32 0x41200000#32) := by
  rw [Cert.ReferenceIdeal.RefValue.ref_value]
  have hT : (fun (b : Fin 4) (n : Fin 76800) => shapeCast Cert.ReferenceIdeal.S4x76800 a0 Cert.ReferenceIdeal.Gen.shapeCasts_S4x1x240x320_S4x76800 (ix2 b n)) = flat a0 :=
    funext fun b => funext fun n => flat_eq a0 _ b n
  have hS : (fun b : Fin 4 => Host.reduce (FloatOps.maximumf (F := Ideal) (φ := .f32)) a0 (constant (F := Ideal) Cert.ReferenceIdeal.S_ .f32 0xFF800000#32) Cert.ReferenceIdeal.Gen.reducesTo_S4x1x240x320_S4x1_d2_3 Cert.ReferenceIdeal.Gen.h_S_ (ix2 b 0)) = scale a0 :=
    funext fun b => scale_of_reduce23 a0 _ const_neg_inf _ _ b
  rw [hT, hS]
  rfl

/-- The kernel program's loss, in the tables of its two arguments, under the precondition's facts. -/
theorem kernel_loss (m : (ℓ : Loc Cert.KernelIdeal.nD Cert.KernelIdeal.τ Cert.KernelIdeal.sig) → Buf (Elt Ideal) ℓ) (c : Dev Cert.KernelIdeal.nD)
    (hfin0 : ∀ i, ∃ r : ℝ, m ((c.tc : Thread Cert.KernelIdeal.nD Cert.KernelIdeal.τ).loc Cert.KernelIdeal.main_arg0) i = (r : EReal))
    (hfin1 : ∀ i, ∃ r : ℝ, m ((c.tc : Thread Cert.KernelIdeal.nD Cert.KernelIdeal.τ).loc Cert.KernelIdeal.main_arg1) i = (r : EReal))
    (hσ : ∀ b : Fin 4, scale (m ((c.tc : Thread Cert.KernelIdeal.nD Cert.KernelIdeal.τ).loc Cert.KernelIdeal.main_arg0)) b ≠ 0) :
    Cert.KernelIdeal.Run.loss m c
      = refLoss (bins (m ((c.tc : Thread Cert.KernelIdeal.nD Cert.KernelIdeal.τ).loc Cert.KernelIdeal.main_arg1)))
          (flat (m ((c.tc : Thread Cert.KernelIdeal.nD Cert.KernelIdeal.τ).loc Cert.KernelIdeal.main_arg0)))
          (scale (m ((c.tc : Thread Cert.KernelIdeal.nD Cert.KernelIdeal.τ).loc Cert.KernelIdeal.main_arg0)))
          (Ideal.ofBits .f32 0x43800000#32) (Ideal.ofBits .f32 0x47960000#32) (Ideal.ofBits .f32 0x40800000#32) (Ideal.ofBits .f32 0x41200000#32) := by
  unfold Cert.KernelIdeal.Run.loss
  have hβ : Cert.KernelIdeal.Acc.β m c = bins (m ((c.tc : Thread Cert.KernelIdeal.nD Cert.KernelIdeal.τ).loc Cert.KernelIdeal.main_arg1)) := by
    funext b k
    unfold Cert.KernelIdeal.Acc.β bins
    exact congrFun (Cert.KernelIdeal.Gen.V_main_arg1 m c) _
  have hS : Cert.KernelIdeal.Run.scaleK (m ((c.tc : Thread Cert.KernelIdeal.nD Cert.KernelIdeal.τ).loc Cert.KernelIdeal.main_arg0))
      = scale (m ((c.tc : Thread Cert.KernelIdeal.nD Cert.KernelIdeal.τ).loc Cert.KernelIdeal.main_arg0)) := by
    funext b
    unfold Cert.KernelIdeal.Run.scaleK
    exact scale_of_reduce123 _ _ const_neg_inf _ _ b
  rw [hβ, hS]
  refine kernelLoss_eq_refLoss_of_pre _ _ hfin0 hfin1 hσ _ fun t ht b n => ?_
  have hN : Cert.KernelIdeal.cfg0.N = 10 := Cert.KernelIdeal.Gen.N_0
  have ht' : t < Cert.KernelIdeal.cfg0.N := by omega
  unfold Cert.KernelIdeal.Acc.X
  rw [dif_pos ht', Cert.KernelIdeal.Blocks.tile_block m c ⟨t, ht'⟩ b n, Cert.KernelIdeal.Blocks.flat_array m c]
  exact flat_eq _ _ b _

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the arguments, end with the same loss. -/
theorem algebraic : Cert.algebraic_KernelIdeal_ReferenceIdeal := by
  intro m ρ m' ρ' hpre hagree
  refine ⟨fun c => shapeCast Cert.KernelIdeal.S1 (fun _ : Cert.KernelIdeal.S_.Idx => Cert.KernelIdeal.Run.loss m c) Cert.KernelIdeal.Gen.shapeCasts_S_S1,
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨hf0, hf1, hσ⟩ := pre_facts _ _ (hpre c)
  show _ = shapeCast Cert.KernelIdeal.S1 (fun _ : Cert.KernelIdeal.S_.Idx => Cert.KernelIdeal.Run.loss m c) Cert.KernelIdeal.Gen.shapeCasts_S_S1
  rw [Cert.ReferenceIdeal.Read.val_main_v26_eq]
  unfold Cert.ReferenceIdeal.Read.val_main_v26
  rw [ref_loss, (hagree c).1, (hagree c).2, kernel_loss m c hf0 hf1 hσ]

end Cert.Proof.Chamfer

end
-- ==== Proof.lean ====
/-
  The certificate's claim: the three programs run and leave their arguments unchanged; the idealized kernel program is the
  kernel program's own text read at the extended reals (nothing was rewritten); and the idealized kernel program and the
  idealized reference end with the same chamfer loss whenever every pixel and bin centre is a real number and no image's
  largest pixel is zero (Proof/Claims.lean).
-/
import proofs.«142597_j42812234006906_2_alg».proof.Defs
import proofs.«142597_j42812234006906_2_alg».proof.Proof.Gen.Kernel
import proofs.«142597_j42812234006906_2_alg».proof.Proof.Gen.Kernel.Skeleton
import proofs.«142597_j42812234006906_2_alg».proof.Proof.Gen.Kernel.Launch
import proofs.«142597_j42812234006906_2_alg».proof.Proof.Gen.Kernel.Points
import proofs.«142597_j42812234006906_2_alg».proof.Proof.Gen.Kernel.Frame
import proofs.«142597_j42812234006906_2_alg».proof.Proof.Gen.KernelIdeal
import proofs.«142597_j42812234006906_2_alg».proof.Proof.Gen.KernelIdeal.Skeleton
import proofs.«142597_j42812234006906_2_alg».proof.Proof.Gen.KernelIdeal.Launch
import proofs.«142597_j42812234006906_2_alg».proof.Proof.Gen.KernelIdeal.Points
import proofs.«142597_j42812234006906_2_alg».proof.Proof.Gen.KernelIdeal.Frame
import proofs.«142597_j42812234006906_2_alg».proof.Proof.Gen.ReferenceIdeal
import proofs.«142597_j42812234006906_2_alg».proof.Proof.Gen.ReferenceIdeal.Run
import proofs.«142597_j42812234006906_2_alg».proof.Proof.Gen.ReferenceIdeal.Read
import proofs.«142597_j42812234006906_2_alg».proof.Proof.Gen.Pre_finite_inputs
import proofs.«142597_j42812234006906_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Chamfer.frame_k, Cert.Proof.Chamfer.frame_ki, Cert.Proof.Chamfer.frame_ri, Cert.Proof.Chamfer.preserves,
  Cert.Proof.Chamfer.algebraic⟩

end Cert.Proof

end
